-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x225x1280 : Shape := ⟨3, ![256, 225, 1280]⟩
abbrev S256x256 : Shape := ⟨2, ![256, 256]⟩
abbrev S1280x256 : Shape := ⟨2, ![1280, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S256x225x1280 : S_.BroadcastsInDim S256x225x1280 (![] : Fin 0 → Fin S256x225x1280.rank)
  reducesTo_S256x225x1280_S_d0_1_2 : S256x225x1280.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S256x225x1280 .f32) (main_arg1 : FVec F S256x256 .f32) (main_arg2 : FVec F S1280x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S256x225x1280 .f32 := Host.absf main_arg0
  let main_cst : FVec F S_ .f32 := constant S_ .f32 0x7F800000#32
  let main_v1 : FVec F S256x225x1280 .f32 := broadcastInDim S256x225x1280 ![] bcast_S_S256x225x1280 main_cst
  let main_v2 : IVec S256x225x1280 1 := cmpf .olt main_v0 main_v1
  let main_c : IVec S_ 1 := constantI S_ 1 1#1
  let main_v3 : IVec S_ 1 := (fun x v => Host.reduce IntOp.andi x v reducesTo_S256x225x1280_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1280x256 .f32 := Host.absf main_arg2
  let main_cst_2 : FVec F S_ .f32 := constant S_ .f32 0x7F800000#32
  let main_v10 : FVec F S1280x256 .f32 := broadcastInDim S1280x256 ![] bcast_S_S1280x256 main_cst_2
  let main_v11 : IVec S1280x256 1 := cmpf .olt main_v9 main_v10
  let main_c_3 : IVec S_ 1 := constantI S_ 1 1#1
  let main_v12 : IVec S_ 1 := (fun x v => Host.reduce IntOp.andi x v reducesTo_S1280x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S256x225x1280 : Shape := ⟨3, ![256, 225, 1280]⟩
abbrev S256x256 : Shape := ⟨2, ![256, 256]⟩
abbrev S1280x256 : Shape := ⟨2, ![1280, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S256x1280 : Shape := ⟨2, ![256, 1280]⟩
abbrev S8x225x1280 : Shape := ⟨3, ![8, 225, 1280]⟩
abbrev S8x256 : Shape := ⟨2, ![8, 256]⟩
abbrev S8x1280 : Shape := ⟨2, ![8, 1280]⟩
abbrev S1x225x1280 : Shape := ⟨3, ![1, 225, 1280]⟩
abbrev S225x1280 : Shape := ⟨2, ![225, 1280]⟩
abbrev S225x256 : Shape := ⟨2, ![225, 256]⟩
abbrev S225 : Shape := ⟨1, ![225]⟩
abbrev S1x225 : Shape := ⟨2, ![1, 225]⟩
abbrev S1x1280 : Shape := ⟨2, ![1, 1280]⟩
abbrev S1280 : Shape := ⟨1, ![1280]⟩

abbrev nBuf : Space → Nat
  | .hbm => 15
  | .vmem => 12
  | .smem => 0
  | _ => 0

abbrev bufTy : (tb : Table) → Fin (tcTables nBuf tb) → BufTy
  | .hbm, ⟨0, _⟩ => ⟨S256x225x1280, .f32⟩
  | .hbm, ⟨1, _⟩ => ⟨S256x256, .f32⟩
  | .hbm, ⟨2, _⟩ => ⟨S1280x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S1280x256, .bf16⟩
  | .hbm, ⟨9, _⟩ => ⟨S256x256, .bf16⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x1, .f32⟩
  | .hbm, ⟨14, _⟩ => ⟨S256x1280, .f32⟩
  | .local _ .vmem, ⟨0, _⟩ => ⟨S8x225x1280, .f32⟩
  | .local _ .vmem, ⟨1, _⟩ => ⟨S8x225x1280, .f32⟩
  | .local _ .vmem, ⟨2, _⟩ => ⟨S8x256, .f32⟩
  | .local _ .vmem, ⟨3, _⟩ => ⟨S8x256, .f32⟩
  | .local _ .vmem, ⟨4, _⟩ => ⟨S1280x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S8x1280, .f32⟩
  | .local _ .vmem, ⟨11, _⟩ => ⟨S8x1280, .f32⟩
  | _, _ => ⟨S256x225x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x225x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  transposes_S256x1_S1x256_1_0 : S256x1.Transposes [1, 0] S1x256
  shapeCasts_S256_S1x256 : S256.ShapeCasts S1x256
  shapeCasts_S1_S1x1 : S1.ShapeCasts S1x1
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S8x256_S8x256_0_0 : ∀ a, (![0, 0] : Fin 2 → Nat) a + S8x256.size a ≤ S8x256.size a
  h_S8x256 : 0 < S8x256.numel
  broadcasts_S1x256_S8x256 : S1x256.Broadcasts S8x256
  inb_S8x225x1280_S1x225x1280_0_0_0 : ∀ a, (![0, 0, 0] : Fin 3 → Nat) a + S1x225x1280.size a ≤ S8x225x1280.size a
  h_S1x225x1280 : 0 < S1x225x1280.numel
  shapeCasts_S1x225x1280_S225x1280 : S1x225x1280.ShapeCasts S225x1280
  broadcasts_S1x256_S225x256 : S1x256.Broadcasts S225x256
  slices_S8x256_o0_0_S1x256 : S8x256.Slices ![0, 0] S1x256
  shapeCasts_S1x256_S256 : S1x256.ShapeCasts S256
  reduces_S225x256_S225 : S225x256.Reduces [1] S225
  shapeCasts_S225_S1x225 : S225.ShapeCasts S1x225
  reduces_S1x225_S1 : S1x225.Reduces [1] S1
  broadcasts_S1x1_S1x225 : S1x1.Broadcasts S1x225
  shapeCasts_S1x1280_S1280 : S1x1280.ShapeCasts S1280
  inb_S8x1280_S1x1280_0_0 : ∀ a, (![0, 0] : Fin 2 → Nat) a + S1x1280.size a ≤ S8x1280.size a
  h_S1x1280 : 0 < S1x1280.numel
  shapeCasts_S1280_S1x1280 : S1280.ShapeCasts S1x1280
  inb_S8x225x1280_S1x225x1280_1_0_0 : ∀ a, (![1, 0, 0] : Fin 3 → Nat) a + S1x225x1280.size a ≤ S8x225x1280.size a
  slices_S8x256_o1_0_S1x256 : S8x256.Slices ![1, 0] S1x256
  inb_S8x1280_S1x1280_1_0 : ∀ a, (![1, 0] : Fin 2 → Nat) a + S1x1280.size a ≤ S8x1280.size a
  inb_S8x225x1280_S1x225x1280_2_0_0 : ∀ a, (![2, 0, 0] : Fin 3 → Nat) a + S1x225x1280.size a ≤ S8x225x1280.size a
  slices_S8x256_o2_0_S1x256 : S8x256.Slices ![2, 0] S1x256
  inb_S8x1280_S1x1280_2_0 : ∀ a, (![2, 0] : Fin 2 → Nat) a + S1x1280.size a ≤ S8x1280.size a
  inb_S8x225x1280_S1x225x1280_3_0_0 : ∀ a, (![3, 0, 0] : Fin 3 → Nat) a + S1x225x1280.size a ≤ S8x225x1280.size a
  slices_S8x256_o3_0_S1x256 : S8x256.Slices ![3, 0] S1x256
  inb_S8x1280_S1x1280_3_0 : ∀ a, (![3, 0] : Fin 2 → Nat) a + S1x1280.size a ≤ S8x1280.size a
  inb_S8x225x1280_S1x225x1280_4_0_0 : ∀ a, (![4, 0, 0] : Fin 3 → Nat) a + S1x225x1280.size a ≤ S8x225x1280.size a
  slices_S8x256_o4_0_S1x256 : S8x256.Slices ![4, 0] S1x256
  inb_S8x1280_S1x1280_4_0 : ∀ a, (![4, 0] : Fin 2 → Nat) a + S1x1280.size a ≤ S8x1280.size a
  inb_S8x225x1280_S1x225x1280_5_0_0 : ∀ a, (![5, 0, 0] : Fin 3 → Nat) a + S1x225x1280.size a ≤ S8x225x1280.size a
  slices_S8x256_o5_0_S1x256 : S8x256.Slices ![5, 0] S1x256
  inb_S8x1280_S1x1280_5_0 : ∀ a, (![5, 0] : Fin 2 → Nat) a + S1x1280.size a ≤ S8x1280.size a
  inb_S8x225x1280_S1x225x1280_6_0_0 : ∀ a, (![6, 0, 0] : Fin 3 → Nat) a + S1x225x1280.size a ≤ S8x225x1280.size a
  slices_S8x256_o6_0_S1x256 : S8x256.Slices ![6, 0] S1x256
  inb_S8x1280_S1x1280_6_0 : ∀ a, (![6, 0] : Fin 2 → Nat) a + S1x1280.size a ≤ S8x1280.size a
  inb_S8x225x1280_S1x225x1280_7_0_0 : ∀ a, (![7, 0, 0] : Fin 3 → Nat) a + S1x225x1280.size a ≤ S8x225x1280.size a
  slices_S8x256_o7_0_S1x256 : S8x256.Slices ![7, 0] S1x256
  inb_S8x1280_S1x1280_7_0 : ∀ a, (![7, 0] : Fin 2 → Nat) a + S1x1280.size a ≤ S8x1280.size a
  dot_S8x256_S256x256_S8x256_1_0_0_1_n_n_wf : DotDims.WF S8x256 S256x256 S8x256 [1] [0] [0] [1] [] []
  dot_S225x1280_S1280x256_S225x256_1_0_0_1_n_n_wf : DotDims.WF S225x1280 S1280x256 S225x256 [1] [0] [0] [1] [] []
  dot_S1x225_S225x1280_S1x1280_1_0_0_1_n_n_wf : DotDims.WF S1x225 S225x1280 S1x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x225x1280.size a ≤ S256x225x1280.size a
  hwx0_0 : ∀ i : grid0.Coords, EltTy.bits .f32 = 32 ∨ (Rect.block (s := S256x225x1280) S8x225x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S256x256.size a
  hwx0_1 : ∀ i : grid0.Coords, EltTy.bits .f32 = 32 ∨ (Rect.block (s := S256x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S1280x256.size a
  hwx0_2 : ∀ i : grid0.Coords, EltTy.bits .bf16 = 32 ∨ (Rect.block (s := S1280x256) S1280x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1280.size a ≤ S256x1280.size a
  hwx0_8 : ∀ i : grid0.Coords, EltTy.bits .f32 = 32 ∨ (Rect.block (s := S256x1280) S8x1280.size (cc0_transform_8 i) (hinb0_8 i)).WholeWords (EltTy.packing .f32)

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S225x1280_S1280x256_S225x256_1_0_0_1_n_n : DotDims S225x1280 S1280x256 S225x256 where
  lhsContracting := [1]
  rhsContracting := [0]
  lhsNonContracting := [0]
  rhsNonContracting := [1]
  lhsBatch := []
  rhsBatch := []
  wf := dot_S225x1280_S1280x256_S225x256_1_0_0_1_n_n_wf
def dot_S1x225_S225x1280_S1x1280_1_0_0_1_n_n : DotDims S1x225 S225x1280 S1x1280 where
  lhsContracting := [1]
  rhsContracting := [0]
  lhsNonContracting := [0]
  rhsNonContracting := [1]
  lhsBatch := []
  rhsBatch := []
  wf := dot_S1x225_S225x1280_S1x1280_1_0_0_1_n_n_wf

abbrev win0_0 : Pipeline.Window sig grid0 :=
  Pipeline.Window.ofSpec (Memref.whole main_arg0) S8x225x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1280x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S8x1280.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x225x1280 : Shape := ⟨3, ![256, 225, 1280]⟩
abbrev S256x256 : Shape := ⟨2, ![256, 256]⟩
abbrev S1280x256 : Shape := ⟨2, ![1280, 256]⟩
abbrev S256 : Shape := ⟨1, ![256]⟩
abbrev S256x1 : Shape := ⟨2, ![256, 1]⟩
abbrev S1 : Shape := ⟨1, ![1]⟩
abbrev S256x225x256 : Shape := ⟨3, ![256, 225, 256]⟩
abbrev S1x1x256 : Shape := ⟨3, ![1, 1, 256]⟩
abbrev S1x256 : Shape := ⟨2, ![1, 256]⟩
abbrev S256x1x256 : Shape := ⟨3, ![256, 1, 256]⟩
abbrev S256x225x1 : Shape := ⟨3, ![256, 225, 1]⟩
abbrev S1x1x1 : Shape := ⟨3, ![1, 1, 1]⟩
abbrev S_ : Shape := ⟨0, ![]⟩
abbrev S256x1x1 : Shape := ⟨3, ![256, 1, 1]⟩
abbrev S256x1280 : Shape := ⟨2, ![256, 1280]⟩

abbrev nBuf : Space → Nat
  | .hbm => 42
  | .vmem => 0
  | .smem => 0
  | _ => 0

abbrev bufTy : (tb : Table) → Fin (tcTables nBuf tb) → BufTy
  | .hbm, ⟨0, _⟩ => ⟨S256x225x1280, .f32⟩
  | .hbm, ⟨1, _⟩ => ⟨S256x256, .f32⟩
  | .hbm, ⟨2, _⟩ => ⟨S1280x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S256x225x256, .f32⟩
  | .hbm, ⟨9, _⟩ => ⟨S1x1x256, .f32⟩
  | .hbm, ⟨10, _⟩ => ⟨S256x225x256, .f32⟩
  | .hbm, ⟨11, _⟩ => ⟨S256x225x256, .f32⟩
  | .hbm, ⟨12, _⟩ => ⟨S256x256, .f32⟩
  | .hbm, ⟨13, _⟩ => ⟨S1x256, .f32⟩
  | .hbm, ⟨14, _⟩ => ⟨S256x256, .f32⟩
  | .hbm, ⟨15, _⟩ => ⟨S256x256, .f32⟩
  | .hbm, ⟨16, _⟩ => ⟨S256x1x256, .f32⟩
  | .hbm, ⟨17, _⟩ => ⟨S256x225x256, .f32⟩
  | .hbm, ⟨18, _⟩ => ⟨S256x225x256, .f32⟩
  | .hbm, ⟨19, _⟩ => ⟨S256x225x256, .f32⟩
  | .hbm, ⟨20, _⟩ => ⟨S256x225x1, .f32⟩
  | .hbm, ⟨21, _⟩ => ⟨S1x1x1, .f32⟩
  | .hbm, ⟨22, _⟩ => ⟨S256x225x1, .f32⟩
  | .hbm, ⟨23, _⟩ => ⟨S256x225x1, .f32⟩
  | .hbm, ⟨24, _⟩ => ⟨S_, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1x1, .f32⟩
  | .hbm, ⟨30, _⟩ => ⟨S256x225x1, .f32⟩
  | .hbm, ⟨31, _⟩ => ⟨S256x225x1, .f32⟩
  | .hbm, ⟨32, _⟩ => ⟨S256x225x1, .f32⟩
  | .hbm, ⟨33, _⟩ => ⟨S_, .f32⟩
  | .hbm, ⟨34, _⟩ => ⟨S256x1, .f32⟩
  | .hbm, ⟨35, _⟩ => ⟨S256x1x1, .f32⟩
  | .hbm, ⟨36, _⟩ => ⟨S256x225x1, .f32⟩
  | .hbm, ⟨37, _⟩ => ⟨S256x225x1, .f32⟩
  | .hbm, ⟨38, _⟩ => ⟨S256x225x1280, .f32⟩
  | .hbm, ⟨39, _⟩ => ⟨S256x225x1280, .f32⟩
  | .hbm, ⟨40, _⟩ => ⟨S_, .f32⟩
  | .hbm, ⟨41, _⟩ => ⟨S256x1280, .f32⟩
  | _, _ => ⟨S256x225x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S256x225x256_0_1_2 : S1x1x256.BroadcastsInDim S256x225x256 (![0, 1, 2] : Fin 3 → Fin S256x225x256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S256x256_S256x1x256_0_2 : S256x256.BroadcastsInDim S256x1x256 (![0, 2] : Fin 2 → Fin S256x1x256.rank)
  bcast_S256x1x256_S256x225x256_0_1_2 : S256x1x256.BroadcastsInDim S256x225x256 (![0, 1, 2] : Fin 3 → Fin S256x225x256.rank)
  bcast_S1_S1x1x1_2 : S1.BroadcastsInDim S1x1x1 (![2] : Fin 1 → Fin S1x1x1.rank)
  bcast_S1x1x1_S256x225x1_0_1_2 : S1x1x1.BroadcastsInDim S256x225x1 (![0, 1, 2] : Fin 3 → Fin S256x225x1.rank)
  reducesTo_S256x225x1_S256x1_d1 : S256x225x1.ReducesTo [1] S256x1
  h_S_ : 0 < S_.numel
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x225x1_0_1_2 : S256x1x1.BroadcastsInDim S256x225x1 (![0, 1, 2] : Fin 3 → Fin S256x225x1.rank)
  bcast_S256x225x1_S256x225x1280_0_1_2 : S256x225x1.BroadcastsInDim S256x225x1280 (![0, 1, 2] : Fin 3 → Fin S256x225x1280.rank)
  reducesTo_S256x225x1280_S256x1280_d1 : S256x225x1280.ReducesTo [1] S256x1280
  dot_S256x225x1280_S1280x256_S256x225x256_2_0_01_1_n_n_wf : DotDims.WF S256x225x1280 S1280x256 S256x225x256 [2] [0] [0, 1] [1] [] []
  dot_S256x256_S256x256_S256x256_1_0_0_1_n_n_wf : DotDims.WF S256x256 S256x256 S256x256 [1] [0] [0] [1] [] []
  dot_S256x225x256_S256x1_S256x225x1_2_0_01_1_n_n_wf : DotDims.WF S256x225x256 S256x1 S256x225x1 [2] [0] [0, 1] [1] [] []

variable [Facts₀]

def dot_S256x225x1280_S1280x256_S256x225x256_2_0_01_1_n_n : DotDims S256x225x1280 S1280x256 S256x225x256 where
  lhsContracting := [2]
  rhsContracting := [0]
  lhsNonContracting := [0, 1]
  rhsNonContracting := [1]
  lhsBatch := []
  rhsBatch := []
  wf := dot_S256x225x1280_S1280x256_S256x225x256_2_0_01_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x225x256_S256x1_S256x225x1_2_0_01_1_n_n : DotDims S256x225x256 S256x1 S256x225x1 where
  lhsContracting := [2]
  rhsContracting := [0]
  lhsNonContracting := [0, 1]
  rhsNonContracting := [1]
  lhsBatch := []
  rhsBatch := []
  wf := dot_S256x225x256_S256x1_S256x225x1_2_0_01_1_n_n_wf

class Facts : Prop extends Facts₀ where

variable [Facts]
-- ==== Proof.RowBody.lean ====
/-
  One batch row of additive attention, as the kernel body computes it on vectors.

  The body treats the eight batch rows of a block alike: it projects the row's 225 feature vectors by `W1`, adds the
  bias and the row's projected hidden state (row `r` of the block's 8 × 256 projection), takes `tanh`, contracts with
  `V` and adds its bias to get 225 logits, normalises them by a softmax (subtract the maximum, exponentiate, divide by
  the sum), and contracts the 225 weights with the row's features.  `rowBody` is that chain of vector operations once,
  with the row's position `off` in the projected hidden block as a parameter; the eight stored values of the body
  are its eight instances, by unfolding.
-/
import proofs.«150355_j69226282877122_2_alg».proof.Proof.Gen.KernelIdeal.Skeleton

set_option synthInstance.maxSize 4096

noncomputable section

namespace Cert.KernelIdeal.Row

open Cert.KernelIdeal Cert.KernelIdeal.Gen Idealize.ShloMosaic Idealize.SL.Sem

variable {F : FTy → Type} [FloatOps F]

/-- The row's features as the matrix unit reads them: the loaded 1 × 225 × 1280 slab as a 225 × 1280 matrix (the change of
    float format is part of the body; on the extended reals it changes nothing). -/
def featsB (x : Vec F S1x225x1280 .f32) : FVec F S225x1280 .bf16 :=
  have f32s : FVec F S225x1280 .f32 := shapeCast S225x1280 x shapeCasts_S1x225x1280_S225x1280
  have fb : FVec F S225x1280 .bf16 := truncf .bf16 f32s bitsLt_bf16_f32
  fb

/-- The row's 225 logits as a 1 × 225 vector: project the features by `w1`, add `b1` and row `off` of the projected
    hidden block `ph`, `tanh`, weight by `vv`, sum over the 256 units, add `bv`. -/
def logitsV (off : Fin S8x256.rank → Nat) (hs : S8x256.Slices off S1x256) (w1 : FVec F S1280x256 .bf16) (b1 : FVec F S1x256 .f32)
    (vv : FVec F S1x256 .f32) (bv : F .f32) (ph : FVec F S8x256 .f32) (fb : FVec F S225x1280 .bf16) : FVec F S1x225 .f32 :=
  have z : FVec F S225x256 .f32 := constant S225x256 .f32 0x00000000#32
  have pf : FVec F S225x256 .f32 := matmul dot_S225x1280_S1280x256_S225x256_1_0_0_1_n_n none fb w1 z
  have b1b : FVec F S225x256 .f32 := broadcastTo S225x256 b1 broadcasts_S1x256_S225x256
  have pfb : FVec F S225x256 .f32 := addf pf b1b
  have phr : FVec F S1x256 .f32 := extractStridedSlice S1x256 off ph hs
  have phv : FVec F S256 .f32 := shapeCast S256 phr shapeCasts_S1x256_S256
  have phr' : FVec F S1x256 .f32 := shapeCast S1x256 phv shapeCasts_S256_S1x256
  have phb : FVec F S225x256 .f32 := broadcastTo S225x256 phr' broadcasts_S1x256_S225x256
  have pre : FVec F S225x256 .f32 := addf pfb phb
  have sc : FVec F S225x256 .f32 := tanh pre
  have vb : FVec F S225x256 .f32 := broadcastTo S225x256 vv broadcasts_S1x256_S225x256
  have sv : FVec F S225x256 .f32 := mulf sc vb
  have lg0 : FVec F S225 .f32 := multiReduction .add [1] S225 sv 0x00000000#32 reduces_S225x256_S225 (.inl rfl) rfl
  have bvb : FVec F S225 .f32 := broadcast S225 bv
  have lg1 : FVec F S225 .f32 := addf lg0 bvb
  have lg : FVec F S1x225 .f32 := shapeCast S1x225 lg1 shapeCasts_S225_S1x225
  lg

/-- The softmax of the logits contracted with the features: subtract the maximum, exponentiate, divide by the sum, and
    multiply the 1 × 225 weights into the 225 × 1280 features. -/
def softCtx (fb : FVec F S225x1280 .bf16) (lg : FVec F S1x225 .f32) : FVec F S1x1280 .f32 :=
  have mx : FVec F S1 .f32 := multiReduction .maximumf [1] S1 lg 0xFF800000#32 reduces_S1x225_S1 (.inl rfl) rfl
  have mx' : FVec F S1x1 .f32 := shapeCast S1x1 mx shapeCasts_S1_S1x1
  have mxb : FVec F S1x225 .f32 := broadcastTo S1x225 mx' broadcasts_S1x1_S1x225
  have d : FVec F S1x225 .f32 := subf lg mxb
  have e : FVec F S1x225 .f32 := exp d
  have sm : FVec F S1 .f32 := multiReduction .add [1] S1 e 0x00000000#32 reduces_S1x225_S1 (.inl rfl) rfl
  have sm' : FVec F S1x1 .f32 := shapeCast S1x1 sm shapeCasts_S1_S1x1
  have smb : FVec F S1x225 .f32 := broadcastTo S1x225 sm' broadcasts_S1x1_S1x225
  have att : FVec F S1x225 .f32 := divf e smb
  have atb : FVec F S1x225 .bf16 := truncf .bf16 att bitsLt_bf16_f32
  have z' : FVec F S1x1280 .f32 := constant S1x1280 .f32 0x00000000#32
  have ctx : FVec F S1x1280 .f32 := matmul dot_S1x225_S225x1280_S1x1280_1_0_0_1_n_n none atb fb z'
  have cv : FVec F S1280 .f32 := shapeCast S1280 ctx shapeCasts_S1x1280_S1280
  have out : FVec F S1x1280 .f32 := shapeCast S1x1280 cv shapeCasts_S1280_S1x1280
  out

/-- The row's context vector from the weights as loaded (`w1`, `b1`, `vv`, the scalar `bv`), the block's projected
    hidden states `ph`, and the row's features `x` as loaded: the body's operations, in its order. -/
def rowBody (off : Fin S8x256.rank → Nat) (hs : S8x256.Slices off S1x256) (w1 : FVec F S1280x256 .bf16) (b1 : FVec F S1x256 .f32)
    (vv : FVec F S1x256 .f32) (bv : F .f32) (ph : FVec F S8x256 .f32) (x : Vec F S1x225x1280 .f32) : FVec F S1x1280 .f32 :=
  softCtx (featsB x) (logitsV off hs w1 b1 vv bv ph (featsB x))

/-! The eight stored values, each the row function at its own row of the projected hidden block.  Rows 1, 2, 5 and 6
    are one stored term each; rows 0, 3, 4 and 7 are spread over several terms that compose to the same chain. -/

theorem row1 (v1 : FVec F S1280x256 .bf16) (v5 v9 : FVec F S1x256 .f32) (v11 : F .f32) (v16 : FVec F S8x256 .f32) (x : Vec F S1x225x1280 .f32) :
    k0_pay11 v1 v5 v9 v11 v16 x = rowBody ![1, 0] slices_S8x256_o1_0_S1x256 v1 v5 v9 v11 v16 x := rfl

theorem row2 (v1 : FVec F S1280x256 .bf16) (v5 v9 : FVec F S1x256 .f32) (v11 : F .f32) (v16 : FVec F S8x256 .f32) (x : Vec F S1x225x1280 .f32) :
    k0_pay12 v1 v5 v9 v11 v16 x = rowBody ![2, 0] slices_S8x256_o2_0_S1x256 v1 v5 v9 v11 v16 x := rfl

theorem row5 (v1 : FVec F S1280x256 .bf16) (v5 v9 : FVec F S1x256 .f32) (v11 : F .f32) (v16 : FVec F S8x256 .f32) (x : Vec F S1x225x1280 .f32) :
    k0_pay20 v1 v5 v9 v11 v16 x = rowBody ![5, 0] slices_S8x256_o5_0_S1x256 v1 v5 v9 v11 v16 x := rfl

theorem row6 (v1 : FVec F S1280x256 .bf16) (v5 v9 : FVec F S1x256 .f32) (v11 : F .f32) (v16 : FVec F S8x256 .f32) (x : Vec F S1x225x1280 .f32) :
    k0_pay21 v1 v5 v9 v11 v16 x = rowBody ![6, 0] slices_S8x256_o6_0_S1x256 v1 v5 v9 v11 v16 x := rfl

theorem row0 (v0 : Vec F S1280x256 .bf16) (v2 : Vec F S256x256 .bf16) (v4 v6 v8 : Vec F S1x256 .f32) (v10 : Vec F S1x1 .f32)
    (v12 : Vec F S8x256 .f32) (x : Vec F S1x225x1280 .f32) :
    k0_pay10 (k0_pay7 x) (k0_pay8 v0 v2 v4 v6 v8 v10 v12 x) (k0_pay9 v0 v2 v4 v6 v8 v10 v12 x)
      = rowBody ![0, 0] slices_S8x256_o0_0_S1x256 (k0_pay2 v0) (k0_pay3 v4) (k0_pay4 v8) (k0_pay5 v10) (k0_pay6 v2 v6 v12) x := rfl

theorem row3 (v1 : FVec F S1280x256 .bf16) (v5 v9 : FVec F S1x256 .f32) (v11 : F .f32) (v16 : FVec F S8x256 .f32) (x : Vec F S1x225x1280 .f32) :
    k0_pay15 v9 v11 (k0_pay13 x) (k0_pay14 v1 v5 v16 x) = rowBody ![3, 0] slices_S8x256_o3_0_S1x256 v1 v5 v9 v11 v16 x := rfl

theorem row4 (v1 : FVec F S1280x256 .bf16) (v5 v9 : FVec F S1x256 .f32) (v11 : F .f32) (v16 : FVec F S8x256 .f32) (x : Vec F S1x225x1280 .f32) :
    k0_pay19 (k0_pay16 x) (k0_pay17 v1 v5 v9 v11 v16 x) (k0_pay18 v1 v5 v9 v11 v16 x)
      = rowBody ![4, 0] slices_S8x256_o4_0_S1x256 v1 v5 v9 v11 v16 x := rfl

theorem row7 (v1 : FVec F S1280x256 .bf16) (v5 v9 : FVec F S1x256 .f32) (v11 : F .f32) (v16 : FVec F S8x256 .f32) (x : Vec F S1x225x1280 .f32) :
    k0_pay1 v11 (k0_pay22 x) (k0_pay23 v1 v5 v9 v16 x) = rowBody ![7, 0] slices_S8x256_o7_0_S1x256 v1 v5 v9 v11 v16 x := rfl

end Cert.KernelIdeal.Row

end
-- ==== Proof.AttnSpec.lean ====
/-
  Additive attention over one batch row, on the extended reals.

  A row has 225 feature vectors `f l` of length 1280 and one projected hidden vector `h` of length 256.  Its logits are
  `λ l = (∑ u, tanh ((∑ k, f l k · W1 k u + b1 u) + h u) · v u) + c`; the attention weights are the softmax of the logits in
  the numerically stable form `exp (λ l − M) / ∑ l', exp (λ l' − M)` with `M` the maximum of the logits (a fold of `max`
  from −∞); the context vector is `∑ l, weight l · f l d`.  The projected hidden vector of a batch row is
  `h u = (∑ k, x k · W2 k u) + b2 u`.  Everything is stated with the sums and products of the extended reals, in the one
  association both programs use, so no finiteness is needed to compare them.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The extended real the binary32 pattern of −∞ denotes. -/
abbrev negInf : EReal := Ideal.ofBits .f32 0xFF800000#32

/-- −∞ is neutral for `max`. -/
theorem max_negInf (y : EReal) : max negInf y = y := by
  show max (Ideal.ofBits .f32 0xFF800000#32) y = y
  simp [Ideal.ofBits, Ideal.ieee]

/-- The projected hidden vector of a batch row: `x · W2 + b2`. -/
def projH (x : Fin 256 → EReal) (W2 : Fin 256 → Fin 256 → EReal) (b2 : Fin 256 → EReal) (u : Fin 256) : EReal :=
  (∑ k : Fin 256, x k * W2 k u) + b2 u

/-- The logit of position `l` of a row. -/
def rowLogit (f : Fin 225 → Fin 1280 → EReal) (h : Fin 256 → EReal) (W1 : Fin 1280 → Fin 256 → EReal) (b1 : Fin 256 → EReal)
    (v : Fin 256 → EReal) (c : EReal) (l : Fin 225) : EReal :=
  (∑ u : Fin 256, Ideal.tanh (((∑ k : Fin 1280, f l k * W1 k u) + b1 u) + h u) * v u) + c

/-- The maximum of a row's logits, as a fold of `max` from −∞. -/
def rowMax (lg : Fin 225 → EReal) : EReal := (Finset.univ : Finset (Fin 225)).fold max negInf lg

/-- The unnormalised softmax weight of position `l`. -/
def rowExp (lg : Fin 225 → EReal) (l : Fin 225) : EReal := Ideal.exp (lg l - rowMax lg)

/-- The softmax weight of position `l`. -/
def rowWeight (lg : Fin 225 → EReal) (l : Fin 225) : EReal := Ideal.div (rowExp lg l) (∑ l' : Fin 225, rowExp lg l')

/-- The context vector of a row at coordinate `d`: the weighted sum of its features. -/
def rowCtx (f : Fin 225 → Fin 1280 → EReal) (lg : Fin 225 → EReal) (d : Fin 1280) : EReal :=
  ∑ l : Fin 225, rowWeight lg l * f l d

/-- The whole result array from the eight argument arrays: row `b`, coordinate `d`. -/
def G (x0 : (⟨3, ![256, 225, 1280]⟩ : Shape).Idx → EReal) (x1 : (⟨2, ![256, 256]⟩ : Shape).Idx → EReal)
    (x2 : (⟨2, ![1280, 256]⟩ : Shape).Idx → EReal) (x3 : (⟨1, ![256]⟩ : Shape).Idx → EReal)
    (x4 : (⟨2, ![256, 256]⟩ : Shape).Idx → EReal) (x5 : (⟨1, ![256]⟩ : Shape).Idx → EReal)
    (x6 : (⟨2, ![256, 1]⟩ : Shape).Idx → EReal) (x7 : (⟨1, ![1]⟩ : Shape).Idx → EReal) :
    (⟨2, ![256, 1280]⟩ : Shape).Idx → EReal := fun i =>
  rowCtx (fun l k => x0 (ix3 (i 0) l k))
    (rowLogit (fun l k => x0 (ix3 (i 0) l k))
      (projH (fun k => x1 (ix2 (i 0) k)) (fun k u => x4 (ix2 k u)) (fun u => x5 (ix1 u)))
      (fun k u => x2 (ix2 k u)) (fun u => x3 (ix1 u)) (fun u => x6 (ix2 u (0 : Fin 1))) (x7 (ix1 (0 : Fin 1))))
    (i 1)

end Cert.Attn

end
-- ==== Proof.LibPlainDot.lean ====
/-
  A plain matrix product read at one entry, on the extended reals.

  For the dimension numbers of an `M × K` by `K × N` product (the left operand contracted on its second axis, the
  right on its first, no batch axis: `DotDims.plain M K N`), the contraction runs over one axis of extent `K`, and
  at result entry `(p, q)` and contraction position `k` the left operand is read at `(p, k)` and the right at
  `(k, q)`. So the product into a zero accumulator, and equally the host's `dot_general`, is at `(p, q)` the sum
  `∑ k, L (p, k) · R (k, q)` over `Fin K`: no rounding, no chunk order, and no finiteness assumed (the sum is the
  extended reals' own). Any extents, any operand formats.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the result's row coordinate. -/
theorem lhs0 (j : (⟨2, ![M, N]⟩ : Shape).Idx) (k : (DotDims.plain M K N).contr.Idx) :
    ((DotDims.plain M K N).lhsIdx j k 0).val = (j 0).val := rfl
/-- The left operand's column coordinate is the contraction position. -/
theorem lhs1 (j : (⟨2, ![M, N]⟩ : Shape).Idx) (k : (DotDims.plain M K N).contr.Idx) :
    ((DotDims.plain M K N).lhsIdx j k 1).val = (k ⟨0, Nat.one_pos⟩).val := rfl
/-- The right operand's row coordinate is the contraction position. -/
theorem rhs0 (j : (⟨2, ![M, N]⟩ : Shape).Idx) (k : (DotDims.plain M K N).contr.Idx) :
    ((DotDims.plain M K N).rhsIdx j k 0).val = (k ⟨0, Nat.one_pos⟩).val := rfl
/-- The right operand's column coordinate is the result's column coordinate. -/
theorem rhs1 (j : (⟨2, ![M, N]⟩ : Shape).Idx) (k : (DotDims.plain M K N).contr.Idx) :
    ((DotDims.plain M K N).rhsIdx j k 1).val = (j 1).val := rfl

/-- The contraction's sum at entry `(p, q)`, re-indexed by the contraction axis's one coordinate. -/
theorem sum_apply {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 M K N _ _
      | ⟨1, _⟩ => exact (lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 M K N _ _).trans hk
      | ⟨1, _⟩ => exact rhs1 M K N _ _)
  rw [el, er]

/-- A matrix product into the zero accumulator, at entry `(p, q)`: `∑ k, L (p, k) · R (k, q)`. -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant (F := Ideal) ⟨2, ![M, N]⟩ .f32 0x00000000#32) (ix2 p q)
      = ∑ k : Fin K, L (ix2 p k) * R (ix2 k q) :=
  (Ideal.matmul_constant_zero_apply _ prec L R (ix2 p q)).trans (sum_apply M K N L R p q)

/-- The host's `dot_general` with the same dimension numbers, at entry `(p, q)`: the same sum. -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) :=
  (Ideal.dotGeneral_apply _ prec sched L R (ix2 p q)).trans (sum_apply M K N L R p q)

end Idealize.ShloMosaic.PlainDot

end
-- ==== Proof.LibStackSlices.lean ====
/-
  General lemmas: one layer's parameters cut out of a stack.

  A stack of `n` matrices `[n, a, b]`, sliced to its `o`-th matrix `[1, a, b]` and reshaped to `[a, b]`, reads at `(i, j)`
  the stack at `(o, i, j)`.  A stack of `n` vectors `[n, a]`, sliced to `[1, a]`, reshaped to `[a]` and back to `[1, a]`,
  reads at `(u, j)` the stack at `(o, j)`.  Both hold for any element type: a slice and a reshape only move indices.
-/
import Idealize.ShloMosaic.Lib.Pipeline.Value
import Idealize.ShloMosaic.Lib.ValueIdx
import Idealize.ShloMosaic.Lib.ValueLayout

namespace Cert.Lib.StackSlices

open Idealize.ShloMosaic Idealize.ShloMosaic.ValueIdx

variable {α : Type}

/-- Matrix `o` of a stack, as an `[a, b]` array, at `(i, j)`. -/
theorem stackSq_apply {n a b : ℕ} (o : ℕ) (W : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (l : Fin n) (hl : l.val = o) (i : Fin a) (j : Fin b) :
    shapeCast ⟨2, ![a, b]⟩ (extractStridedSlice ⟨3, ![1, a, b]⟩ ![o, 0, 0] W hs) hc (ix2 i j) = W (ix3 l i j) := by
  rw [shapeCast_1ab_ab_apply]
  refine extractStridedSlice_apply _ _ _ _ _ (fun ax => ?_)
  match ax with
  | ⟨0, _⟩ => exact hl.trans (Nat.add_zero _).symm
  | ⟨1, _⟩ => exact (Nat.zero_add _).symm
  | ⟨2, _⟩ => exact (Nat.zero_add _).symm

/-- Vector `o` of a stack, as a `[1, a]` row reached through `[a]`, at `(u, j)`. -/
theorem stackRow_apply {n a : ℕ} (o : ℕ) (B : (⟨2, ![n, a]⟩ : Shape).Idx → α)
    (hs : (⟨2, ![n, a]⟩ : Shape).Slices ![o, 0] ⟨2, ![1, a]⟩)
    (h1 : (⟨2, ![1, a]⟩ : Shape).ShapeCasts ⟨1, ![a]⟩) (h2 : (⟨1, ![a]⟩ : Shape).ShapeCasts ⟨2, ![1, a]⟩)
    (l : Fin n) (hl : l.val = o) (u : Fin 1) (j : Fin a) :
    shapeCast ⟨2, ![1, a]⟩ (shapeCast ⟨1, ![a]⟩ (extractStridedSlice ⟨2, ![1, a]⟩ ![o, 0] B hs) h1) h2 (ix2 u j)
      = B (ix2 l j) := by
  rw [shapeCast_a_1a_apply, shapeCast_1a_a_apply]
  exact slice2_axis0_apply o B hs 0 j l (by rw [hl]; rfl)

end Cert.Lib.StackSlices
-- ==== Proof.RowValue.lean ====
/-
  One batch row of the body, read on the extended reals at one coordinate.

  With every float an extended real, the body's row function (`rowBody`) is, at coordinate `d` of its 1 × 1280 result,
  the context vector of additive attention (`Attn.rowCtx`) of the row's features under the logits (`Attn.rowLogit`) that
  the features, the weights and one row of the projected hidden block give.  The steps: a matrix product into a zero
  accumulator is a sum over the contracted axis; a reduction over the last axis is a sum, or a fold of `max`, over that
  axis; reshapes, broadcasts and the slice of one row only move indices; the change of float format is the identity.
-/
import proofs.«150355_j69226282877122_2_alg».proof.Proof.RowBody
import proofs.«150355_j69226282877122_2_alg».proof.Proof.AttnSpec
import proofs.«150355_j69226282877122_2_alg».proof.Proof.LibPlainDot
import proofs.«150355_j69226282877122_2_alg».proof.Proof.LibStackSlices
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Row

open Cert.KernelIdeal Cert.KernelIdeal.Gen Idealize.ShloMosaic Idealize.ShloMosaic.ValueIdx Idealize.SL.Sem

/-! ## Small layout facts at the row's shapes -/

/-- A 1 × 1 value spread over a 1 × 225 row reads that value everywhere. -/
theorem bcast_one_row {α : Type} (v : S1x1.Idx → α) (h : S1x1.Broadcasts S1x225) (l : Fin 225) :
    broadcastTo S1x225 v h (ix2 (0 : Fin 1) l) = v (ix2 (0 : Fin 1) (0 : Fin 1)) :=
  broadcastTo_apply v h _ _ (fun ax => match ax with
    | ⟨0, _⟩ => rfl
    | ⟨1, _⟩ => rfl)

/-- Putting position `k` back into the reduced axis of a 1 × 225 row gives the index (0, k). -/
theorem lift_row (h : S1x225.Reduces [1] S1) (k : Fin (S1x225.size 1)) :
    h.lift (ix1 (0 : Fin 1)) k = ix2 (0 : Fin 1) (⟨k.val, k.isLt⟩ : Fin 225) := by
  funext c; apply Fin.ext
  fin_cases c <;> rfl

/-- The row maximum, reduced to one entry and spread back over the row, reads the fold of `max` from −∞ at every
    position. -/
theorem maxB_apply (lg : FVec Ideal S1x225 .f32) (h : S1x225.Reduces [1] S1) (hφ : FKind.Formats .f32)
    (hacc : (0xFF800000#32 : BitVec 32) = FKind.maximumf.neutral .f32 hφ) (hc : S1.ShapeCasts S1x1) (hb : S1x1.Broadcasts S1x225)
    (l : Fin 225) :
    broadcastTo S1x225 (shapeCast S1x1 (multiReduction .maximumf [1] S1 lg 0xFF800000#32 h hφ hacc) hc) hb (ix2 (0 : Fin 1) l)
      = Attn.rowMax (fun l => lg (ix2 (0 : Fin 1) l)) := by
  rw [bcast_one_row, shapeCast_a_1a_apply]
  refine (Ideal.multiReduction_maximumf_single lg _ h hφ hacc (ix1 (0 : Fin 1))).trans ?_
  unfold Attn.rowMax
  have hf : (lg ∘ h.lift (ix1 (0 : Fin 1))) = fun l : Fin 225 => lg (ix2 (0 : Fin 1) l) :=
    funext fun k => congrArg lg (lift_row h k)
  exact congrArg (fun f => Finset.fold max (Ideal.ofBits .f32 0xFF800000#32) f (Finset.univ : Finset (Fin 225))) hf

/-- The row sum, reduced to one entry and spread back over the row, reads the sum of the row at every position. -/
theorem sumB_apply (e : FVec Ideal S1x225 .f32) (h : S1x225.Reduces [1] S1) (hφ : FKind.Formats .f32)
    (hacc : (0x00000000#32 : BitVec 32) = FKind.add.neutral .f32 hφ) (hc : S1.ShapeCasts S1x1) (hb : S1x1.Broadcasts S1x225)
    (l : Fin 225) :
    broadcastTo S1x225 (shapeCast S1x1 (multiReduction .add [1] S1 e 0x00000000#32 h hφ hacc) hc) hb (ix2 (0 : Fin 1) l)
      = ∑ l' : Fin 225, e (ix2 (0 : Fin 1) l') := by
  rw [bcast_one_row, shapeCast_a_1a_apply]
  refine (Ideal.multiReduction_add_single e _ h hφ hacc (ix1 (0 : Fin 1))).trans ?_
  exact Finset.sum_congr rfl fun k _ => congrArg e (lift_row h k)

/-! ## The softmax and the weighted sum of the features -/

/-- The softmax of the logits contracted with the features, at coordinate `d`: `∑ l, (exp (λ l − M) / ∑ l', exp (λ l' − M)) · f l d`
    with `M` the maximum of the logits. -/
theorem softCtx_apply (fb : FVec Ideal S225x1280 .bf16) (lg : FVec Ideal S1x225 .f32) (d : Fin 1280) :
    softCtx fb lg (ix2 (0 : Fin 1) d) = Attn.rowCtx (fun l k => fb (ix2 l k)) (fun l => lg (ix2 (0 : Fin 1) l)) d := by
  unfold softCtx
  dsimp only
  rw [shapeCast_a_1a_apply, shapeCast_1a_a_apply]
  refine (PlainDot.matmul_zero_apply 1 225 1280 none _ _ 0 d).trans ?_
  unfold Attn.rowCtx
  refine Finset.sum_congr rfl fun l _ => ?_
  congr 1
  show Ideal.div (Ideal.exp (lg (ix2 (0 : Fin 1) l) - _)) _ = _
  refine (congrArg₂ Ideal.div (congrArg (fun m => Ideal.exp (lg (ix2 (0 : Fin 1) l) - m)) (maxB_apply lg _ _ _ _ _ l))
    (sumB_apply _ _ _ _ _ _ l)).trans ?_
  unfold Attn.rowWeight Attn.rowExp
  refine congrArg (Ideal.div _) (Finset.sum_congr rfl fun l' _ => ?_)
  show Ideal.exp (lg (ix2 (0 : Fin 1) l') - _) = _
  exact congrArg (fun m => Ideal.exp (lg (ix2 (0 : Fin 1) l') - m)) (maxB_apply lg _ _ _ _ _ l')

/-! ## The logits -/

/-- Putting unit `u` back into the reduced axis of a 225 × 256 array at row `l` gives the index (l, u). -/
theorem lift_col (h : S225x256.Reduces [1] S225) (l : Fin 225) (u : Fin 256) :
    h.lift (ix1 l) u = ix2 l u := by
  funext c; apply Fin.ext
  fin_cases c <;> rfl

/-- The logit of position `l`: `(∑ u, tanh ((∑ k, f l k · W1 k u + b1 u) + h r u) · v u) + c`, with `h r` row `r` of the
    projected hidden block. -/
theorem logitsV_apply (r : Fin 8) (hs : S8x256.Slices ![r.val, 0] S1x256) (w1 : FVec Ideal S1280x256 .bf16) (b1 vv : FVec Ideal S1x256 .f32)
    (bv : Ideal .f32) (ph : FVec Ideal S8x256 .f32) (fb : FVec Ideal S225x1280 .bf16) (l : Fin 225) :
    logitsV ![r.val, 0] hs w1 b1 vv bv ph fb (ix2 (0 : Fin 1) l)
      = Attn.rowLogit (fun l k => fb (ix2 l k)) (fun u => ph (ix2 r u)) (fun k u => w1 (ix2 k u)) (fun u => b1 (ix2 (0 : Fin 1) u))
          (fun u => vv (ix2 (0 : Fin 1) u)) bv l := by
  unfold logitsV
  dsimp only
  rw [shapeCast_a_1a_apply]
  show (multiReduction .add [1] S225 _ _ _ _ _ (ix1 l)) + bv = _
  unfold Attn.rowLogit
  refine congrArg (· + bv) ?_
  refine (Ideal.multiReduction_add_single _ _ reduces_S225x256_S225 _ _ (ix1 l)).trans ?_
  refine Finset.sum_congr rfl fun (u : Fin 256) _ => ?_
  rw [lift_col]
  show Ideal.tanh ((_ + _) + _) * _ = _
  refine congrArg₂ (· * ·) (congrArg Ideal.tanh (congrArg₂ (· + ·) (congrArg₂ (· + ·) ?_ ?_) ?_)) ?_
  · exact PlainDot.matmul_zero_apply 225 1280 256 none fb w1 l u
  · exact broadcastTo_1b_ab_apply b1 _ l u
  · exact (broadcastTo_1b_ab_apply _ _ l u).trans (Cert.Lib.StackSlices.stackRow_apply r.val ph hs _ _ r rfl 0 u)
  · exact broadcastTo_1b_ab_apply vv _ l u

/-! ## The features as the matrix unit reads them, and the whole row -/

/-- The 225 × 1280 features matrix at (l, k) is the loaded 1 × 225 × 1280 slab at (0, l, k). -/
theorem featsB_apply (x : Vec Ideal S1x225x1280 .f32) (l : Fin 225) (k : Fin 1280) :
    featsB x (ix2 l k) = x (ix3 (0 : Fin 1) l k) := by
  unfold featsB
  exact shapeCast_1ab_ab_apply x _ l k

/-- One batch row of the body on the extended reals: the context vector of the row's features under the logits the
    row's features, the weights and row `r` of the projected hidden block give. -/
theorem rowBody_apply (r : Fin 8) (hs : S8x256.Slices ![r.val, 0] S1x256) (w1 : FVec Ideal S1280x256 .bf16) (b1 vv : FVec Ideal S1x256 .f32)
    (bv : Ideal .f32) (ph : FVec Ideal S8x256 .f32) (x : Vec Ideal S1x225x1280 .f32) (d : Fin 1280) :
    rowBody ![r.val, 0] hs w1 b1 vv bv ph x (ix2 (0 : Fin 1) d)
      = Attn.rowCtx (fun l k => x (ix3 (0 : Fin 1) l k))
          (Attn.rowLogit (fun l k => x (ix3 (0 : Fin 1) l k)) (fun u => ph (ix2 r u)) (fun k u => w1 (ix2 k u))
            (fun u => b1 (ix2 (0 : Fin 1) u)) (fun u => vv (ix2 (0 : Fin 1) u)) bv) d := by
  unfold rowBody
  rw [softCtx_apply]
  have hf : (fun (l : Fin 225) (k : Fin 1280) => featsB x (ix2 l k)) = fun l k => x (ix3 (0 : Fin 1) l k) :=
    funext fun l => funext fun k => featsB_apply x l k
  have hl : (fun l : Fin 225 => logitsV ![r.val, 0] hs w1 b1 vv bv ph (featsB x) (ix2 (0 : Fin 1) l))
      = Attn.rowLogit (fun l k => x (ix3 (0 : Fin 1) l k)) (fun u => ph (ix2 r u)) (fun k u => w1 (ix2 k u))
            (fun u => b1 (ix2 (0 : Fin 1) u)) (fun u => vv (ix2 (0 : Fin 1) u)) bv :=
    funext fun l => (logitsV_apply r hs w1 b1 vv bv ph (featsB x) l).trans (by rw [hf])
  rw [hf, hl]

end Cert.KernelIdeal.Row

end
-- ==== Proof.LibPieces.lean ====
/-
  Reading back a buffer after unmasked writes through unit-stride rectangles, one index at a time.

  The contents left by a list of writes (newest first) are, at an index, the payload of the first write whose
  rectangle holds the index, read at the index's position inside that rectangle.  For a unit-stride rectangle
  that position is the index minus the rectangle's offset, coordinate by coordinate (`rel`).  The same holds of
  the canonical contents of a list of pieces, which forget what the buffer held before.  A blend of old contents
  with an update placed at a start offset reads the update inside its window and the old contents outside.
-/
import Idealize.ShloMosaic.Lib.Pipeline.FrameBody
import Idealize.ShloMosaic.Lib.Pipeline.Value

noncomputable section

namespace Cert.LibPieces

open Idealize.ShloMosaic

variable {s : Shape} {e : EltTy} {Val : EltTy → Type}

/-- The position of the index `y` inside a unit-stride rectangle of offsets `off` and sizes `size` that holds it. -/
def rel (off size : Fin s.rank → Nat) (y : s.Idx) (h : ∀ a, off a ≤ (y a : Nat) ∧ (y a : Nat) < off a + size a) :
    (⟨s.rank, size⟩ : Shape).Idx := fun a => ⟨(y a : Nat) - off a, by have := h a; show (y a : Nat) - off a < size a; omega⟩

@[simp] theorem rel_val (off size : Fin s.rank → Nat) (y : s.Idx) (h) (a : Fin s.rank) :
    ((rel off size y h a : Fin (size a)) : Nat) = (y a : Nat) - off a := rfl

/-- Placing that position back in the whole shape gives the index. -/
theorem emb_rel (off size : Fin s.rank → Nat) (inb : ∀ a, off a + size a ≤ s.size a) (y : s.Idx) (h) :
    (Rect.unit off size inb).emb (rel off size y h) = y := by
  funext a
  apply Fin.ext
  have e := Rect.emb_apply (Rect.unit off size inb) (rel off size y h) a
  rw [e]
  simp only [Rect.off_unit, Rect.stride_unit, Nat.one_mul]
  have := h a
  show off a + ((y a : Nat) - off a) = (y a : Nat)
  omega

section Canon
variable [∀ e, Nonempty (Val e)]

/-- The canonical contents at an index the newest piece holds: that piece's payload at the index's position. -/
theorem canon_cons_unit_of_mem (off size : Fin s.rank → Nat) (inb : ∀ a, off a + size a ≤ s.size a)
    (w : (Rect.unit off size inb).shape.Idx → Val e) (L : List (View.Piece Val s e)) (y : s.Idx)
    (h : ∀ a, off a ≤ (y a : Nat) ∧ (y a : Nat) < off a + size a) :
    View.canon (⟨Rect.unit off size inb, w⟩ :: L) y = w (rel off size y h) := by
  conv_lhs => rw [← emb_rel off size inb y h]
  exact View.canon_cons_emb _ w L _

/-- At an index the newest piece does not hold: the canonical contents of the earlier pieces. -/
theorem canon_cons_unit_of_not_mem (off size : Fin s.rank → Nat) (inb : ∀ a, off a + size a ≤ s.size a)
    (w : (Rect.unit off size inb).shape.Idx → Val e) (L : List (View.Piece Val s e)) (y : s.Idx)
    (h : ¬ ∀ a, off a ≤ (y a : Nat) ∧ (y a : Nat) < off a + size a) :
    View.canon (⟨Rect.unit off size inb, w⟩ :: L) y = View.canon L y :=
  View.canon_cons_of_not_mem _ L (fun hm => h ((Rect.mem_set_unit (inb := inb)).mp hm))

end Canon

section Writes
variable {sig : RefSig} {κ : Kind} {sp : Space} (v : View sig κ sp s e) (f : v.ty.Contents Val)

/-- A buffer read back at an index the newest write holds: that write's payload at the index's position. -/
theorem read_writes_cons_unit_of_mem (off size : Fin s.rank → Nat) (inb : ∀ a, off a + size a ≤ s.size a)
    (w : (Rect.unit off size inb).shape.Idx → Val e) (L : List (View.Piece Val s e)) (y : s.Idx)
    (h : ∀ a, off a ≤ (y a : Nat) ∧ (y a : Nat) < off a + size a) :
    v.read Val (v.writes Val f (⟨Rect.unit off size inb, w⟩ :: L)) y = w (rel off size y h) := by
  conv_lhs => rw [← emb_rel off size inb y h]
  exact View.read_writes_cons_emb v f _ w L _

/-- At an index the newest write does not hold: what the earlier writes left. -/
theorem read_writes_cons_unit_of_not_mem (off size : Fin s.rank → Nat) (inb : ∀ a, off a + size a ≤ s.size a)
    (w : (Rect.unit off size inb).shape.Idx → Val e) (L : List (View.Piece Val s e)) (y : s.Idx)
    (h : ¬ ∀ a, off a ≤ (y a : Nat) ∧ (y a : Nat) < off a + size a) :
    v.read Val (v.writes Val f (⟨Rect.unit off size inb, w⟩ :: L)) y = v.read Val (v.writes Val f L) y := by
  rw [View.writes_cons]
  exact View.read_slice_write_of_not_mem _ _ _ _ (by
    rw [Rect.map_emb_univ]; exact fun hm => h ((Rect.mem_set_unit (inb := inb)).mp hm))

end Writes

section Blend
variable {α : Type} {u : Shape}

/-- Inside the update's window a blend reads the update, at the index minus the start. -/
theorem updateSlice_of_mem (x : s.Idx → α) (upd : u.Idx → α) (start : Fin s.rank → Nat) (hs : s.Slices start u) (i : s.Idx)
    (hin : ∀ a : Fin s.rank, start a ≤ (i a).val ∧ (i a).val < start a + u.size (a.cast hs.1.symm)) :
    ∃ k : u.Idx, (∀ b : Fin u.rank, ((k b : Fin _) : Nat) = (i (b.cast hs.1)).val - start (b.cast hs.1)) ∧
      updateSlice x upd start hs i = upd k := by
  refine ⟨fun b => ⟨(i (b.cast hs.1)).val - start (b.cast hs.1), by
      have hb := hin (b.cast hs.1)
      have e : (b.cast hs.1).cast hs.1.symm = b := rfl
      rw [e] at hb
      omega⟩, fun b => rfl, ?_⟩
  unfold updateSlice
  rw [dif_pos hin]

/-- Outside it, the old contents. -/
theorem updateSlice_of_not_mem (x : s.Idx → α) (upd : u.Idx → α) (start : Fin s.rank → Nat) (hs : s.Slices start u) (i : s.Idx)
    (hout : ¬ ∀ a : Fin s.rank, start a ≤ (i a).val ∧ (i a).val < start a + u.size (a.cast hs.1.symm)) :
    updateSlice x upd start hs i = x i := by
  unfold updateSlice
  rw [dif_neg hout]

end Blend

end Cert.LibPieces

end
-- ==== Proof.LibReadAt.lean ====
/-
  Two readings that recur whenever a kernel's stores and loads are opened at an index, for any shapes.

  A load of a buffer through a unit-stride rectangle, read at a position, is the buffer at the rectangle's offsets plus
  the position, coordinate by coordinate (`ld_unit_apply`; `readAt_unread` puts a load of a whole memref held at
  named contents in that form). A reshape that splits the last axis of a matrix in two, or adds a leading unit axis,
  keeps row-major order: entry `(a, b, c)` of the split is entry `(a, b·C + c)` of the matrix, and entry
  `(0, a, b, c)` of the unit-axis form is entry `(a, b, c)` (`split_last_apply`, `lead_unit4_apply`); the chunk of a
  [1, A, N] vector seen as [A, N] likewise (`drop_unit3_apply`).
-/
import Idealize.ShloMosaic.Lib.Pipeline.FrameBody
import Idealize.ShloMosaic.Lib.Pipeline.Frame
import Idealize.ShloMosaic.Lib.Pipeline.Value
import Idealize.ShloMosaic.Lib.ValueIdx

noncomputable section

namespace Cert.LibReadAt

open Idealize.ShloMosaic

variable {α : Type}

/-- A load through a unit-stride rectangle, at a position: the contents at offset plus position. -/
theorem ld_unit_apply {s : Shape} {Val : EltTy → Type} {e : EltTy} (X : s.Idx → Val e) (off : Fin s.rank → ℕ)
    (size : Fin s.rank → ℕ) (inb : ∀ a, off a + size a ≤ s.size a)
    (k : (Rect.unit (s := s) off size inb).shape.Idx) (j : s.Idx) (hj : ∀ a, (j a).val = off a + (k a).val) :
    View.ld X (Rect.unit (s := s) off size inb) k = X j := by
  show X ((Rect.unit (s := s) off size inb).emb k) = X j
  refine congrArg X (funext fun a => Fin.ext ?_)
  rw [Rect.emb_apply, hj a]
  simp only [Rect.off_unit, Rect.stride_unit, Nat.one_mul]

/-- A [A, B·C] matrix reshaped to [A, B, C], read at `(a, b, c)`. -/
theorem split_last_apply {A B C N : ℕ} (x : (⟨2, ![A, N]⟩ : Shape).Idx → α)
    (h : (⟨2, ![A, N]⟩ : Shape).ShapeCasts ⟨3, ![A, B, C]⟩) (a : Fin A) (b : Fin B) (c : Fin C) (n : Fin N)
    (hN : N = B * C) (hn : n.val = b.val * C + c.val) :
    shapeCast ⟨3, ![A, B, C]⟩ x h (ValueIdx.ix3 a b c) = x (ValueIdx.ix2 a n) := by
  refine shapeCast_apply x h _ _ ?_
  rw [Shape.rowMajor_val_two, Shape.rowMajor_val_three]
  show a.val * N + n.val = (a.val * B + b.val) * C + c.val
  rw [hn, hN]
  ring

/-- A [A, B, C] array given a leading unit axis, read at `(0, a, b, c)`. -/
theorem lead_unit4_apply {A B C : ℕ} (x : (⟨3, ![A, B, C]⟩ : Shape).Idx → α)
    (h : (⟨3, ![A, B, C]⟩ : Shape).ShapeCasts ⟨4, ![1, A, B, C]⟩) (a : Fin A) (b : Fin B) (c : Fin C) :
    shapeCast ⟨4, ![1, A, B, C]⟩ x h (ValueIdx.ix4 (0 : Fin 1) a b c) = x (ValueIdx.ix3 a b c) := by
  refine shapeCast_apply x h _ _ ?_
  rw [Shape.rowMajor_val_three, Shape.rowMajor_val_four]
  show (a.val * B + b.val) * C + c.val = (((0 : ℕ) * A + a.val) * B + b.val) * C + c.val
  rw [Nat.zero_mul, Nat.zero_add]

/-- A [1, A, N] array with its leading unit axis dropped, read at `(a, n)`. -/
theorem drop_unit3_apply {A N : ℕ} (x : (⟨3, ![1, A, N]⟩ : Shape).Idx → α)
    (h : (⟨3, ![1, A, N]⟩ : Shape).ShapeCasts ⟨2, ![A, N]⟩) (a : Fin A) (n : Fin N) :
    shapeCast ⟨2, ![A, N]⟩ x h (ValueIdx.ix2 a n) = x (ValueIdx.ix3 (0 : Fin 1) a n) := by
  refine shapeCast_apply x h _ _ ?_
  rw [Shape.rowMajor_val_three, Shape.rowMajor_val_two]
  show ((0 : ℕ) * A + a.val) * N + n.val = a.val * N + n.val
  rw [Nat.zero_mul, Nat.zero_add]

end Cert.LibReadAt

end
-- ==== Proof.BlockValue.lean ====
/-
  A block of eight batch rows: what the body leaves in its 8 × 1280 output buffer, on the extended reals.

  The body stores one row per batch row of the block.  Coordinate (r, d) of the buffer is therefore the row function of
  batch row `r` at `d`: the loads through whole-buffer rectangles are the blocks themselves, the load of row `r` of the
  features block reads that row, and the projected hidden block at (r, u) is `(∑ k, hidden (r, k) · W2 (k, u)) + b2 u`.
  So the buffer at (r, d) is `blockRow … r d`: the context vector of row `r`.
-/
import proofs.«150355_j69226282877122_2_alg».proof.Proof.Gen.KernelIdeal.Frame
import proofs.«150355_j69226282877122_2_alg».proof.Proof.RowValue
import proofs.«150355_j69226282877122_2_alg».proof.Proof.LibPieces
import proofs.«150355_j69226282877122_2_alg».proof.Proof.LibReadAt

set_option synthInstance.maxSize 4096

noncomputable section

open scoped BigOperators

namespace Cert.KernelIdeal.Block

open Cert.KernelIdeal Cert.KernelIdeal.Gen Cert.KernelIdeal.Row Idealize.ShloMosaic Idealize.ShloMosaic.ValueIdx Idealize.SL.Sem

/-- Row `r`, coordinate `d` of a block's result from the eight input blocks: the context vector of row `r` of the
    features block under the logits its features, the weights, and the projection of row `r` of the hidden block give. -/
def blockRow (x0 : S8x225x1280.Idx → EReal) (x1 : S8x256.Idx → EReal) (x2 : S1280x256.Idx → EReal) (x3 : S1x256.Idx → EReal)
    (x4 : S256x256.Idx → EReal) (x5 x6 : S1x256.Idx → EReal) (x7 : S1x1.Idx → EReal) (r : Fin 8) (d : Fin 1280) : EReal :=
  Attn.rowCtx (fun l k => x0 (ix3 r l k))
    (Attn.rowLogit (fun l k => x0 (ix3 r l k))
      (Attn.projH (fun k => x1 (ix2 r k)) (fun k u => x4 (ix2 k u)) (fun u => x5 (ix2 (0 : Fin 1) u)))
      (fun k u => x2 (ix2 k u)) (fun u => x3 (ix2 (0 : Fin 1) u)) (fun u => x6 (ix2 (0 : Fin 1) u)) (x7 (ix2 (0 : Fin 1) (0 : Fin 1)))) d

/-! ## The values the body computes once per block -/

/-- The offsets of a whole-buffer rectangle of rank two are all zero. -/
theorem zero2 : (![0, 0] : Fin 2 → Nat) = fun _ => 0 := by funext a; fin_cases a <;> rfl

/-- The three weight rows and `W1` pass through a reshape to their own shape, and the scalar bias is the one entry of its
    1 × 1 array. -/
theorem pay2_eq (v0 : Vec Ideal S1280x256 .bf16) : k0_pay2 v0 = v0 := shapeCast_self v0 _
theorem pay3_eq (v4 : Vec Ideal S1x256 .f32) : k0_pay3 v4 = v4 := shapeCast_self v4 _
theorem pay4_eq (v8 : Vec Ideal S1x256 .f32) : k0_pay4 v8 = v8 := shapeCast_self v8 _
theorem pay5_eq (v10 : Vec Ideal S1x1 .f32) : k0_pay5 v10 = v10 (ix2 (0 : Fin 1) (0 : Fin 1)) := by
  unfold k0_pay5 extractAt
  exact congrArg v10 (funext fun a => Fin.ext (by fin_cases a <;> rfl))

/-- The block's projected hidden states: row `r`, unit `u` is `(∑ k, hidden (r, k) · W2 (k, u)) + b2 u`. -/
theorem pay6_apply (v2 : Vec Ideal S256x256 .bf16) (v6 : Vec Ideal S1x256 .f32) (v12 : Vec Ideal S8x256 .f32) (r : Fin 8) (u : Fin 256) :
    k0_pay6 v2 v6 v12 (ix2 r u)
      = Attn.projH (fun k => v12 (ix2 r k)) (fun k u => v2 (ix2 k u)) (fun u => v6 (ix2 (0 : Fin 1) u)) u := by
  unfold k0_pay6 Attn.projH
  dsimp only
  show (_ + _ : EReal) = _
  refine congrArg₂ (· + ·) ?_ ?_
  · refine (PlainDot.matmul_zero_apply 8 256 256 none _ _ r u).trans (Finset.sum_congr rfl fun k _ => ?_)
    rw [shapeCast_self]
    rfl
  · refine (broadcastTo_1b_ab_apply _ _ r u).trans ?_
    rw [shapeCast_self]

/-! ## One row of the block, from its stored value -/

/-- A row of the features block loaded through its 1 × 225 × 1280 rectangle reads the block at that row. -/
theorem ld_row (x0 : Vec Ideal S8x225x1280 .f32) (r : Fin 8) (inb : ∀ a, (![r.val, 0, 0] : Fin 3 → Nat) a + S1x225x1280.size a ≤ S8x225x1280.size a)
    (l : Fin 225) (k : Fin 1280) :
    View.ld x0 (Rect.unit (s := S8x225x1280) ![r.val, 0, 0] S1x225x1280.size inb) (ix3 (0 : Fin 1) l k) = x0 (ix3 r l k) :=
  Cert.LibReadAt.ld_unit_apply x0 _ _ inb _ _ (fun a => by
    fin_cases a
    · show r.val = r.val + 0; rfl
    · show l.val = 0 + l.val; exact (Nat.zero_add _).symm
    · show k.val = 0 + k.val; exact (Nat.zero_add _).symm)

/-- The row function at row `r`, fed the loads the body makes, is `blockRow` at row `r`. -/
theorem row_of_loads (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (r : Fin 8)
    (hs : S8x256.Slices ![r.val, 0] S1x256)
    (inb : ∀ a, (![r.val, 0, 0] : Fin 3 → Nat) a + S1x225x1280.size a ≤ S8x225x1280.size a) (d : Fin 1280) :
    rowBody ![r.val, 0] hs (k0_pay2 (View.ld x2 r0_0)) (k0_pay3 (View.ld x3 r0_2)) (k0_pay4 (View.ld x6 r0_2)) (k0_pay5 (View.ld x7 r0_3))
        (k0_pay6 (View.ld x4 r0_1) (View.ld x5 r0_2) (View.ld x1 r0_4))
        (View.ld x0 (Rect.unit (s := S8x225x1280) ![r.val, 0, 0] S1x225x1280.size inb)) (ix2 (0 : Fin 1) d)
      = blockRow x0 x1 x2 x3 x4 x5 x6 x7 r d := by
  rw [rowBody_apply r hs]
  unfold blockRow
  have e0 : (fun (l : Fin 225) (k : Fin 1280) => View.ld x0 (Rect.unit (s := S8x225x1280) ![r.val, 0, 0] S1x225x1280.size inb) (ix3 (0 : Fin 1) l k))
      = fun l k => x0 (ix3 r l k) := funext fun l => funext fun k => ld_row x0 r inb l k
  have e6 : (fun u : Fin 256 => k0_pay6 (View.ld x4 r0_1) (View.ld x5 r0_2) (View.ld x1 r0_4) (ix2 r u))
      = Attn.projH (fun k => x1 (ix2 r k)) (fun k u => x4 (ix2 k u)) (fun u => x5 (ix2 (0 : Fin 1) u)) := by
    funext u
    rw [pay6_apply, View.ld_unit_zero zero2, View.ld_unit_zero zero2, View.ld_unit_zero zero2]
  rw [e0, e6, pay2_eq, pay3_eq, pay4_eq, pay5_eq, View.ld_unit_zero zero2, View.ld_unit_zero zero2, View.ld_unit_zero zero2,
    View.ld_unit_zero zero2]

/-- Where coordinate (r, d) of the 8 × 1280 buffer sits inside the row-`r` piece: at (0, d). -/
theorem rel_row (r : Fin 8) (d : Fin 1280) (h) :
    Cert.LibPieces.rel (s := S8x1280) ![r.val, 0] S1x1280.size (ix2 r d) h = ix2 (0 : Fin 1) d := by
  funext a; apply Fin.ext
  fin_cases a
  · show r.val - r.val = 0; exact Nat.sub_self _
  · rfl

/-! ## The buffer after the body, one coordinate at a time

The body's eight stores are the eight rows of the 8 × 1280 buffer, listed last first.  Coordinate (r, d) lies in the
row-`r` store only; its value there is the stored row at (0, d). -/

/-- The buffer after the body at (7, d): the row-7 store's value at (0, d), the context vector of row 7. -/
theorem out_row7 (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (d : Fin 1280) :
    out0_8 x0 x1 x2 x3 x4 x5 x6 x7 (ix2 (7 : Fin 8) d) = blockRow x0 x1 x2 x3 x4 x5 x6 x7 (7 : Fin 8) d := by
  unfold out0_8
  refine (Cert.LibPieces.canon_cons_unit_of_mem _ _ _ _ _ _ (fun a => match a with
    | ⟨0, _⟩ => ⟨show (7 : Nat) ≤ 7 from Nat.le_refl _, show (7 : Nat) < 7 + 1 from Nat.lt_succ_self _⟩
    | ⟨1, _⟩ => ⟨Nat.zero_le _, show d.val < 0 + 1280 from by have := d.isLt; omega⟩)).trans ?_
  refine (congrArg _ (rel_row (7 : Fin 8) d _)).trans ?_
  rw [row7]
  exact row_of_loads x0 x1 x2 x3 x4 x5 x6 x7 (7 : Fin 8) _ _ d

/-- The buffer after the body at (6, d): the row-6 store's value at (0, d), the context vector of row 6. -/
theorem out_row6 (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (d : Fin 1280) :
    out0_8 x0 x1 x2 x3 x4 x5 x6 x7 (ix2 (6 : Fin 8) d) = blockRow x0 x1 x2 x3 x4 x5 x6 x7 (6 : Fin 8) d := by
  unfold out0_8
  refine (Cert.LibPieces.canon_cons_unit_of_not_mem _ _ _ _ _ _ (fun h => absurd (show (7 : Nat) ≤ 6 from (h 0).1) (by decide))).trans ?_
  refine (Cert.LibPieces.canon_cons_unit_of_mem _ _ _ _ _ _ (fun a => match a with
    | ⟨0, _⟩ => ⟨show (6 : Nat) ≤ 6 from Nat.le_refl _, show (6 : Nat) < 6 + 1 from Nat.lt_succ_self _⟩
    | ⟨1, _⟩ => ⟨Nat.zero_le _, show d.val < 0 + 1280 from by have := d.isLt; omega⟩)).trans ?_
  refine (congrArg _ (rel_row (6 : Fin 8) d _)).trans ?_
  rw [row6]
  exact row_of_loads x0 x1 x2 x3 x4 x5 x6 x7 (6 : Fin 8) _ _ d

/-- The buffer after the body at (5, d): the row-5 store's value at (0, d), the context vector of row 5. -/
theorem out_row5 (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (d : Fin 1280) :
    out0_8 x0 x1 x2 x3 x4 x5 x6 x7 (ix2 (5 : Fin 8) d) = blockRow x0 x1 x2 x3 x4 x5 x6 x7 (5 : Fin 8) d := by
  unfold out0_8
  refine (Cert.LibPieces.canon_cons_unit_of_not_mem _ _ _ _ _ _ (fun h => absurd (show (7 : Nat) ≤ 5 from (h 0).1) (by decide))).trans ?_
  refine (Cert.LibPieces.canon_cons_unit_of_not_mem _ _ _ _ _ _ (fun h => absurd (show (6 : Nat) ≤ 5 from (h 0).1) (by decide))).trans ?_
  refine (Cert.LibPieces.canon_cons_unit_of_mem _ _ _ _ _ _ (fun a => match a with
    | ⟨0, _⟩ => ⟨show (5 : Nat) ≤ 5 from Nat.le_refl _, show (5 : Nat) < 5 + 1 from Nat.lt_succ_self _⟩
    | ⟨1, _⟩ => ⟨Nat.zero_le _, show d.val < 0 + 1280 from by have := d.isLt; omega⟩)).trans ?_
  refine (congrArg _ (rel_row (5 : Fin 8) d _)).trans ?_
  rw [row5]
  exact row_of_loads x0 x1 x2 x3 x4 x5 x6 x7 (5 : Fin 8) _ _ d

/-- The buffer after the body at (4, d): the row-4 store's value at (0, d), the context vector of row 4. -/
theorem out_row4 (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (d : Fin 1280) :
    out0_8 x0 x1 x2 x3 x4 x5 x6 x7 (ix2 (4 : Fin 8) d) = blockRow x0 x1 x2 x3 x4 x5 x6 x7 (4 : Fin 8) d := by
  unfold out0_8
  refine (Cert.LibPieces.canon_cons_unit_of_not_mem _ _ _ _ _ _ (fun h => absurd (show (7 : Nat) ≤ 4 from (h 0).1) (by decide))).trans ?_
  refine (Cert.LibPieces.canon_cons_unit_of_not_mem _ _ _ _ _ _ (fun h => absurd (show (6 : Nat) ≤ 4 from (h 0).1) (by decide))).trans ?_
  refine (Cert.LibPieces.canon_cons_unit_of_not_mem _ _ _ _ _ _ (fun h => absurd (show (5 : Nat) ≤ 4 from (h 0).1) (by decide))).trans ?_
  refine (Cert.LibPieces.canon_cons_unit_of_mem _ _ _ _ _ _ (fun a => match a with
    | ⟨0, _⟩ => ⟨show (4 : Nat) ≤ 4 from Nat.le_refl _, show (4 : Nat) < 4 + 1 from Nat.lt_succ_self _⟩
    | ⟨1, _⟩ => ⟨Nat.zero_le _, show d.val < 0 + 1280 from by have := d.isLt; omega⟩)).trans ?_
  refine (congrArg _ (rel_row (4 : Fin 8) d _)).trans ?_
  rw [row4]
  exact row_of_loads x0 x1 x2 x3 x4 x5 x6 x7 (4 : Fin 8) _ _ d

/-- The buffer after the body at (3, d): the row-3 store's value at (0, d), the context vector of row 3. -/
theorem out_row3 (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (d : Fin 1280) :
    out0_8 x0 x1 x2 x3 x4 x5 x6 x7 (ix2 (3 : Fin 8) d) = blockRow x0 x1 x2 x3 x4 x5 x6 x7 (3 : Fin 8) d := by
  unfold out0_8
  refine (Cert.LibPieces.canon_cons_unit_of_not_mem _ _ _ _ _ _ (fun h => absurd (show (7 : Nat) ≤ 3 from (h 0).1) (by decide))).trans ?_
  refine (Cert.LibPieces.canon_cons_unit_of_not_mem _ _ _ _ _ _ (fun h => absurd (show (6 : Nat) ≤ 3 from (h 0).1) (by decide))).trans ?_
  refine (Cert.LibPieces.canon_cons_unit_of_not_mem _ _ _ _ _ _ (fun h => absurd (show (5 : Nat) ≤ 3 from (h 0).1) (by decide))).trans ?_
  refine (Cert.LibPieces.canon_cons_unit_of_not_mem _ _ _ _ _ _ (fun h => absurd (show (4 : Nat) ≤ 3 from (h 0).1) (by decide))).trans ?_
  refine (Cert.LibPieces.canon_cons_unit_of_mem _ _ _ _ _ _ (fun a => match a with
    | ⟨0, _⟩ => ⟨show (3 : Nat) ≤ 3 from Nat.le_refl _, show (3 : Nat) < 3 + 1 from Nat.lt_succ_self _⟩
    | ⟨1, _⟩ => ⟨Nat.zero_le _, show d.val < 0 + 1280 from by have := d.isLt; omega⟩)).trans ?_
  refine (congrArg _ (rel_row (3 : Fin 8) d _)).trans ?_
  rw [row3]
  exact row_of_loads x0 x1 x2 x3 x4 x5 x6 x7 (3 : Fin 8) _ _ d

/-- The buffer after the body at (2, d): the row-2 store's value at (0, d), the context vector of row 2. -/
theorem out_row2 (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (d : Fin 1280) :
    out0_8 x0 x1 x2 x3 x4 x5 x6 x7 (ix2 (2 : Fin 8) d) = blockRow x0 x1 x2 x3 x4 x5 x6 x7 (2 : Fin 8) d := by
  unfold out0_8
  refine (Cert.LibPieces.canon_cons_unit_of_not_mem _ _ _ _ _ _ (fun h => absurd (show (7 : Nat) ≤ 2 from (h 0).1) (by decide))).trans ?_
  refine (Cert.LibPieces.canon_cons_unit_of_not_mem _ _ _ _ _ _ (fun h => absurd (show (6 : Nat) ≤ 2 from (h 0).1) (by decide))).trans ?_
  refine (Cert.LibPieces.canon_cons_unit_of_not_mem _ _ _ _ _ _ (fun h => absurd (show (5 : Nat) ≤ 2 from (h 0).1) (by decide))).trans ?_
  refine (Cert.LibPieces.canon_cons_unit_of_not_mem _ _ _ _ _ _ (fun h => absurd (show (4 : Nat) ≤ 2 from (h 0).1) (by decide))).trans ?_
  refine (Cert.LibPieces.canon_cons_unit_of_not_mem _ _ _ _ _ _ (fun h => absurd (show (3 : Nat) ≤ 2 from (h 0).1) (by decide))).trans ?_
  refine (Cert.LibPieces.canon_cons_unit_of_mem _ _ _ _ _ _ (fun a => match a with
    | ⟨0, _⟩ => ⟨show (2 : Nat) ≤ 2 from Nat.le_refl _, show (2 : Nat) < 2 + 1 from Nat.lt_succ_self _⟩
    | ⟨1, _⟩ => ⟨Nat.zero_le _, show d.val < 0 + 1280 from by have := d.isLt; omega⟩)).trans ?_
  refine (congrArg _ (rel_row (2 : Fin 8) d _)).trans ?_
  rw [row2]
  exact row_of_loads x0 x1 x2 x3 x4 x5 x6 x7 (2 : Fin 8) _ _ d

/-- The buffer after the body at (1, d): the row-1 store's value at (0, d), the context vector of row 1. -/
theorem out_row1 (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (d : Fin 1280) :
    out0_8 x0 x1 x2 x3 x4 x5 x6 x7 (ix2 (1 : Fin 8) d) = blockRow x0 x1 x2 x3 x4 x5 x6 x7 (1 : Fin 8) d := by
  unfold out0_8
  refine (Cert.LibPieces.canon_cons_unit_of_not_mem _ _ _ _ _ _ (fun h => absurd (show (7 : Nat) ≤ 1 from (h 0).1) (by decide))).trans ?_
  refine (Cert.LibPieces.canon_cons_unit_of_not_mem _ _ _ _ _ _ (fun h => absurd (show (6 : Nat) ≤ 1 from (h 0).1) (by decide))).trans ?_
  refine (Cert.LibPieces.canon_cons_unit_of_not_mem _ _ _ _ _ _ (fun h => absurd (show (5 : Nat) ≤ 1 from (h 0).1) (by decide))).trans ?_
  refine (Cert.LibPieces.canon_cons_unit_of_not_mem _ _ _ _ _ _ (fun h => absurd (show (4 : Nat) ≤ 1 from (h 0).1) (by decide))).trans ?_
  refine (Cert.LibPieces.canon_cons_unit_of_not_mem _ _ _ _ _ _ (fun h => absurd (show (3 : Nat) ≤ 1 from (h 0).1) (by decide))).trans ?_
  refine (Cert.LibPieces.canon_cons_unit_of_not_mem _ _ _ _ _ _ (fun h => absurd (show (2 : Nat) ≤ 1 from (h 0).1) (by decide))).trans ?_
  refine (Cert.LibPieces.canon_cons_unit_of_mem _ _ _ _ _ _ (fun a => match a with
    | ⟨0, _⟩ => ⟨show (1 : Nat) ≤ 1 from Nat.le_refl _, show (1 : Nat) < 1 + 1 from Nat.lt_succ_self _⟩
    | ⟨1, _⟩ => ⟨Nat.zero_le _, show d.val < 0 + 1280 from by have := d.isLt; omega⟩)).trans ?_
  refine (congrArg _ (rel_row (1 : Fin 8) d _)).trans ?_
  rw [row1]
  exact row_of_loads x0 x1 x2 x3 x4 x5 x6 x7 (1 : Fin 8) _ _ d

/-- The buffer after the body at (0, d): the row-0 store's value at (0, d), the context vector of row 0. -/
theorem out_row0 (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (d : Fin 1280) :
    out0_8 x0 x1 x2 x3 x4 x5 x6 x7 (ix2 (0 : Fin 8) d) = blockRow x0 x1 x2 x3 x4 x5 x6 x7 (0 : Fin 8) d := by
  unfold out0_8
  refine (Cert.LibPieces.canon_cons_unit_of_not_mem _ _ _ _ _ _ (fun h => absurd (show (7 : Nat) ≤ 0 from (h 0).1) (by decide))).trans ?_
  refine (Cert.LibPieces.canon_cons_unit_of_not_mem _ _ _ _ _ _ (fun h => absurd (show (6 : Nat) ≤ 0 from (h 0).1) (by decide))).trans ?_
  refine (Cert.LibPieces.canon_cons_unit_of_not_mem _ _ _ _ _ _ (fun h => absurd (show (5 : Nat) ≤ 0 from (h 0).1) (by decide))).trans ?_
  refine (Cert.LibPieces.canon_cons_unit_of_not_mem _ _ _ _ _ _ (fun h => absurd (show (4 : Nat) ≤ 0 from (h 0).1) (by decide))).trans ?_
  refine (Cert.LibPieces.canon_cons_unit_of_not_mem _ _ _ _ _ _ (fun h => absurd (show (3 : Nat) ≤ 0 from (h 0).1) (by decide))).trans ?_
  refine (Cert.LibPieces.canon_cons_unit_of_not_mem _ _ _ _ _ _ (fun h => absurd (show (2 : Nat) ≤ 0 from (h 0).1) (by decide))).trans ?_
  refine (Cert.LibPieces.canon_cons_unit_of_not_mem _ _ _ _ _ _ (fun h => absurd (show (1 : Nat) ≤ 0 from (h 0).1) (by decide))).trans ?_
  refine (Cert.LibPieces.canon_cons_unit_of_mem _ _ _ _ _ _ (fun a => match a with
    | ⟨0, _⟩ => ⟨show (0 : Nat) ≤ 0 from Nat.le_refl _, show (0 : Nat) < 0 + 1 from Nat.lt_succ_self _⟩
    | ⟨1, _⟩ => ⟨Nat.zero_le _, show d.val < 0 + 1280 from by have := d.isLt; omega⟩)).trans ?_
  refine (congrArg _ (rel_row (0 : Fin 8) d _)).trans ?_
  rw [row0]
  exact row_of_loads x0 x1 x2 x3 x4 x5 x6 x7 (0 : Fin 8) _ _ d

/-- The buffer after the body at (r, d), for every row. -/
theorem out_apply (x0 : Vec Ideal S8x225x1280 .f32) (x1 : Vec Ideal S8x256 .f32) (x2 : Vec Ideal S1280x256 .bf16) (x3 : Vec Ideal S1x256 .f32)
    (x4 : Vec Ideal S256x256 .bf16) (x5 x6 : Vec Ideal S1x256 .f32) (x7 : Vec Ideal S1x1 .f32) (r : Fin 8) (d : Fin 1280) :
    out0_8 x0 x1 x2 x3 x4 x5 x6 x7 (ix2 r d) = blockRow x0 x1 x2 x3 x4 x5 x6 x7 r d := by
  match r with
  | ⟨0, _⟩ => exact out_row0 x0 x1 x2 x3 x4 x5 x6 x7 d
  | ⟨1, _⟩ => exact out_row1 x0 x1 x2 x3 x4 x5 x6 x7 d
  | ⟨2, _⟩ => exact out_row2 x0 x1 x2 x3 x4 x5 x6 x7 d
  | ⟨3, _⟩ => exact out_row3 x0 x1 x2 x3 x4 x5 x6 x7 d
  | ⟨4, _⟩ => exact out_row4 x0 x1 x2 x3 x4 x5 x6 x7 d
  | ⟨5, _⟩ => exact out_row5 x0 x1 x2 x3 x4 x5 x6 x7 d
  | ⟨6, _⟩ => exact out_row6 x0 x1 x2 x3 x4 x5 x6 x7 d
  | ⟨7, _⟩ => exact out_row7 x0 x1 x2 x3 x4 x5 x6 x7 d

end Cert.KernelIdeal.Block

end
-- ==== Proof.ArrayValue.lean ====
/-
  The kernel's result array, on the extended reals, as one function of its arguments.

  The call runs the body at 32 points; point `t` stages batch rows `8t … 8t + 7` of the features and of the hidden
  states, and the six weight arrays whole, as the host operations before the call left them: `W1` and `W2` with their
  float format changed (nothing, on the extended reals), `b1`, `b2` and `bV` reshaped to a row, `V` transposed to a row.
  What the body leaves in its buffer at (r, d) is the context vector of row `r` of the block (`blockRow`), that is of batch
  row `8t + r`; point `t` writes the buffer back to rows `8t … 8t + 7` of the result, and the 32 blocks cover the result.  So
  the result ends holding `Attn.G` of the eight arguments.
-/
import proofs.«150355_j69226282877122_2_alg».proof.Proof.Gen.KernelIdeal.Value
import proofs.«150355_j69226282877122_2_alg».proof.Proof.BlockValue
import Idealize.ShloMosaic.Lib.StableHlo.Run

set_option synthInstance.maxSize 4096

noncomputable section

open scoped BigOperators

namespace Cert.KernelIdeal.Whole

open Cert.KernelIdeal Cert.KernelIdeal.Gen Cert.KernelIdeal.Block Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the host operations write before the call -/

/-- `W1` and `W2` with the float format changed: the same extended reals.  `V` transposed; `b1`, `b2`, `bV` reshaped. -/
theorem V_v0 (c : Dev nD) : (V m c main_v0 : S1280x256.Idx → EReal) = m ((c : Thread nD τ).loc main_arg2) := by
  dsimp only [Gen.V, Gen.hostOps0]; after_results <;> rfl

theorem V_v1 (c : Dev nD) : (V m c main_v1 : S256x256.Idx → EReal) = m ((c : Thread nD τ).loc main_arg4) := by
  dsimp only [Gen.V, Gen.hostOps0]; after_results <;> rfl

theorem V_v2 (c : Dev nD) : (V m c main_v2 : S1x256.Idx → EReal)
    = transpose S1x256 [1, 0] (m ((c : Thread nD τ).loc main_arg6) : S256x1.Idx → EReal) transposes_S256x1_S1x256_1_0 := by
  dsimp only [Gen.V, Gen.hostOps0]; after_results <;> rfl

theorem V_v3 (c : Dev nD) : (V m c main_v3 : S1x256.Idx → EReal)
    = shapeCast S1x256 (m ((c : Thread nD τ).loc main_arg3) : S256.Idx → EReal) shapeCasts_S256_S1x256 := by
  dsimp only [Gen.V, Gen.hostOps0]; after_results <;> rfl

theorem V_v4 (c : Dev nD) : (V m c main_v4 : S1x256.Idx → EReal)
    = shapeCast S1x256 (m ((c : Thread nD τ).loc main_arg5) : S256.Idx → EReal) shapeCasts_S256_S1x256 := by
  dsimp only [Gen.V, Gen.hostOps0]; after_results <;> rfl

theorem V_v5 (c : Dev nD) : (V m c main_v5 : S1x1.Idx → EReal)
    = shapeCast S1x1 (m ((c : Thread nD τ).loc main_arg7) : S1.Idx → EReal) shapeCasts_S1_S1x1 := by
  dsimp only [Gen.V, Gen.hostOps0]; after_results <;> rfl

/-- The printed index maps over the grid: windows 0, 1 and 8 sit at block `t` along the batch axis, the six weight
    windows at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The input blocks at a point -/

/-- The features block at point `t` is batch rows `8t … 8t + 7` of the features. -/
theorem blk0_apply (c : Dev nD) (t : Fin cfg0.N) (r : Fin 8) (l : Fin 225) (k : Fin 1280) (b : Fin 256) (hb : b.val = 8 * t.val + r.val) :
    (iblk m c 0 t : Vec Ideal S8x225x1280 .f32) (ix3 r l k)
      = (m ((c : Thread nD τ).loc main_arg0) : S256x225x1280.Idx → EReal) (ix3 b l k) := by
  obtain ⟨e0, e1, e2, -⟩ := idx_facts t
  unfold iblk
  rw [View.read_apply]
  show V m c main_arg0 _ = _
  rw [V_main_arg0]
  congr 1
  funext a; apply Fin.ext
  match a with
  | ⟨0, _⟩ => show win0_0.index t 0 * 8 + 1 * r.val = b.val; rw [e0, hb]; omega
  | ⟨1, _⟩ => show win0_0.index t 1 * 225 + 1 * l.val = l.val; rw [e1]; omega
  | ⟨2, _⟩ => show win0_0.index t 2 * 1280 + 1 * k.val = k.val; rw [e2]; omega

/-- The hidden-state block at point `t` is batch rows `8t … 8t + 7` of the hidden states. -/
theorem blk1_apply (c : Dev nD) (t : Fin cfg0.N) (r : Fin 8) (k : Fin 256) (b : Fin 256) (hb : b.val = 8 * t.val + r.val) :
    (iblk m c 1 t : Vec Ideal S8x256 .f32) (ix2 r k)
      = (m ((c : Thread nD τ).loc main_arg1) : S256x256.Idx → EReal) (ix2 b k) := by
  obtain ⟨-, -, -, e0, e1, -⟩ := idx_facts t
  unfold iblk
  rw [View.read_apply]
  show V m c main_arg1 _ = _
  rw [V_main_arg1]
  congr 1
  funext a; apply Fin.ext
  match a with
  | ⟨0, _⟩ => show win0_1.index t 0 * 8 + 1 * r.val = b.val; rw [e0, hb]; omega
  | ⟨1, _⟩ => show win0_1.index t 1 * 256 + 1 * k.val = k.val; rw [e1]; omega

/-! ## The weight windows: one block, the whole array, as the host operations left it -/

/-- `W1` as staged (its float format changed by the host, which changes nothing here). -/
theorem blk2_apply (c : Dev nD) (t : Fin cfg0.N) (k : Fin 1280) (u : Fin 256) :
    (iblk m c 2 t : Vec Ideal S1280x256 .bf16) (ix2 k u)
      = (m ((c : Thread nD τ).loc main_arg2) : S1280x256.Idx → EReal) (ix2 k u) := by
  obtain ⟨-, -, -, -, -, e0, e1, -⟩ := idx_facts t
  unfold iblk
  rw [View.read_apply]
  show V m c main_v0 _ = _
  rw [V_v0]
  congr 1
  funext a; apply Fin.ext
  match a with
  | ⟨0, _⟩ => show win0_2.index t 0 * 1280 + 1 * k.val = k.val; rw [e0]; omega
  | ⟨1, _⟩ => show win0_2.index t 1 * 256 + 1 * u.val = u.val; rw [e1]; omega

/-- `b1` as staged: the vector laid as a 1 × 256 row. -/
theorem blk3_apply (c : Dev nD) (t : Fin cfg0.N) (u : Fin 256) :
    (iblk m c 3 t : Vec Ideal S1x256 .f32) (ix2 (0 : Fin 1) u)
      = (m ((c : Thread nD τ).loc main_arg3) : S256.Idx → EReal) (ix1 u) := by
  obtain ⟨-, -, -, -, -, -, -, e0, e1, -⟩ := idx_facts t
  unfold iblk
  rw [View.read_apply]
  show V m c main_v3 _ = _
  rw [V_v3]
  refine Eq.trans (congrArg _ ?_) (shapeCast_a_1a_apply _ _ (0 : Fin 1) u)
  funext a; apply Fin.ext
  match a with
  | ⟨0, _⟩ => show win0_3.index t 0 * 1 + 1 * 0 = 0; rw [e0]
  | ⟨1, _⟩ => show win0_3.index t 1 * 256 + 1 * u.val = u.val; rw [e1]; omega

/-- `W2` as staged. -/
theorem blk4_apply (c : Dev nD) (t : Fin cfg0.N) (k : Fin 256) (u : Fin 256) :
    (iblk m c 4 t : Vec Ideal S256x256 .bf16) (ix2 k u)
      = (m ((c : Thread nD τ).loc main_arg4) : S256x256.Idx → EReal) (ix2 k u) := by
  obtain ⟨-, -, -, -, -, -, -, -, -, e0, e1, -⟩ := idx_facts t
  unfold iblk
  rw [View.read_apply]
  show V m c main_v1 _ = _
  rw [V_v1]
  congr 1
  funext a; apply Fin.ext
  match a with
  | ⟨0, _⟩ => show win0_4.index t 0 * 256 + 1 * k.val = k.val; rw [e0]; omega
  | ⟨1, _⟩ => show win0_4.index t 1 * 256 + 1 * u.val = u.val; rw [e1]; omega

/-- `b2` as staged: the vector laid as a 1 × 256 row. -/
theorem blk5_apply (c : Dev nD) (t : Fin cfg0.N) (u : Fin 256) :
    (iblk m c 5 t : Vec Ideal S1x256 .f32) (ix2 (0 : Fin 1) u)
      = (m ((c : Thread nD τ).loc main_arg5) : S256.Idx → EReal) (ix1 u) := by
  obtain ⟨-, -, -, -, -, -, -, -, -, -, -, e0, e1, -⟩ := idx_facts t
  unfold iblk
  rw [View.read_apply]
  show V m c main_v4 _ = _
  rw [V_v4]
  refine Eq.trans (congrArg _ ?_) (shapeCast_a_1a_apply _ _ (0 : Fin 1) u)
  funext a; apply Fin.ext
  match a with
  | ⟨0, _⟩ => show win0_5.index t 0 * 1 + 1 * 0 = 0; rw [e0]
  | ⟨1, _⟩ => show win0_5.index t 1 * 256 + 1 * u.val = u.val; rw [e1]; omega

/-- `V` as staged: the 256 × 1 column transposed to a 1 × 256 row. -/
theorem blk6_apply (c : Dev nD) (t : Fin cfg0.N) (u : Fin 256) :
    (iblk m c 6 t : Vec Ideal S1x256 .f32) (ix2 (0 : Fin 1) u)
      = (m ((c : Thread nD τ).loc main_arg6) : S256x1.Idx → EReal) (ix2 u (0 : Fin 1)) := by
  obtain ⟨-, -, -, -, -, -, -, -, -, -, -, -, -, e0, e1, -⟩ := idx_facts t
  unfold iblk
  rw [View.read_apply]
  show V m c main_v2 _ = _
  rw [V_v2]
  refine Eq.trans (congrArg _ ?_) (transpose_ix2_apply _ _ (0 : Fin 1) u)
  funext a; apply Fin.ext
  match a with
  | ⟨0, _⟩ => show win0_6.index t 0 * 1 + 1 * 0 = 0; rw [e0]
  | ⟨1, _⟩ => show win0_6.index t 1 * 256 + 1 * u.val = u.val; rw [e1]; omega

/-- `bV` as staged: the one number laid as a 1 × 1 array. -/
theorem blk7_apply (c : Dev nD) (t : Fin cfg0.N) :
    (iblk m c 7 t : Vec Ideal S1x1 .f32) (ix2 (0 : Fin 1) (0 : Fin 1))
      = (m ((c : Thread nD τ).loc main_arg7) : S1.Idx → EReal) (ix1 (0 : Fin 1)) := by
  obtain ⟨-, -, -, -, -, -, -, -, -, -, -, -, -, -, -, e0, e1, -⟩ := idx_facts t
  unfold iblk
  rw [View.read_apply]
  show V m c main_v5 _ = _
  rw [V_v5]
  refine Eq.trans (congrArg _ ?_) (shapeCast_a_1a_apply _ _ (0 : Fin 1) (0 : Fin 1))
  funext a; apply Fin.ext
  match a with
  | ⟨0, _⟩ => show win0_7.index t 0 * 1 + 1 * 0 = 0; rw [e0]
  | ⟨1, _⟩ => show win0_7.index t 1 * 1 + 1 * 0 = 0; rw [e1]

/-! ## From the blocks to the array -/

/-- The result array as one function of the eight argument arrays. -/
abbrev Gm (c : Dev nD) : S256x1280.Idx → EReal :=
  Attn.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Row `r` of the block at point `t` is batch row `8t + r` of the whole-array function. -/
theorem blockRow_eq (c : Dev nD) (t : Fin cfg0.N) (r : Fin 8) (d : Fin 1280) (b : Fin 256) (hb : b.val = 8 * t.val + r.val) :
    blockRow (iblk m c 0 t) (iblk m c 1 t) (iblk m c 2 t) (iblk m c 3 t) (iblk m c 4 t) (iblk m c 5 t) (iblk m c 6 t) (iblk m c 7 t) r d
      = Gm m c (ix2 b d) := by
  unfold blockRow
  have e0 : (fun (l : Fin 225) (k : Fin 1280) => (iblk m c 0 t : Vec Ideal S8x225x1280 .f32) (ix3 r l k))
      = fun l k => (m ((c : Thread nD τ).loc main_arg0) : S256x225x1280.Idx → EReal) (ix3 b l k) :=
    funext fun l => funext fun k => blk0_apply m c t r l k b hb
  have e1 : (fun k : Fin 256 => (iblk m c 1 t : Vec Ideal S8x256 .f32) (ix2 r k))
      = fun k => (m ((c : Thread nD τ).loc main_arg1) : S256x256.Idx → EReal) (ix2 b k) :=
    funext fun k => blk1_apply m c t r k b hb
  have e2 : (fun (k : Fin 1280) (u : Fin 256) => (iblk m c 2 t : Vec Ideal S1280x256 .bf16) (ix2 k u))
      = fun k u => (m ((c : Thread nD τ).loc main_arg2) : S1280x256.Idx → EReal) (ix2 k u) :=
    funext fun k => funext fun u => blk2_apply m c t k u
  have e3 : (fun u : Fin 256 => (iblk m c 3 t : Vec Ideal S1x256 .f32) (ix2 (0 : Fin 1) u))
      = fun u => (m ((c : Thread nD τ).loc main_arg3) : S256.Idx → EReal) (ix1 u) :=
    funext fun u => blk3_apply m c t u
  have e4 : (fun (k : Fin 256) (u : Fin 256) => (iblk m c 4 t : Vec Ideal S256x256 .bf16) (ix2 k u))
      = fun k u => (m ((c : Thread nD τ).loc main_arg4) : S256x256.Idx → EReal) (ix2 k u) :=
    funext fun k => funext fun u => blk4_apply m c t k u
  have e5 : (fun u : Fin 256 => (iblk m c 5 t : Vec Ideal S1x256 .f32) (ix2 (0 : Fin 1) u))
      = fun u => (m ((c : Thread nD τ).loc main_arg5) : S256.Idx → EReal) (ix1 u) :=
    funext fun u => blk5_apply m c t u
  have e6 : (fun u : Fin 256 => (iblk m c 6 t : Vec Ideal S1x256 .f32) (ix2 (0 : Fin 1) u))
      = fun u => (m ((c : Thread nD τ).loc main_arg6) : S256x1.Idx → EReal) (ix2 u (0 : Fin 1)) :=
    funext fun u => blk6_apply m c t u
  rw [e0, e1, e2, e3, e4, e5, e6, blk7_apply m c t]
  rfl

/-- What point `t` writes back is block `t` of the whole-array function. -/
theorem flushed_eq (c : Dev nD) (t : Fin cfg0.N) :
    (dats m 0 c).flushed 8 t = ((cfg0.win 8).blk t).view.read (Elt Ideal) (Gm m c) := by
  rw [Cert.KernelIdeal.Value.flushed8]
  have ht : t.val < 32 := by have h1 := t.isLt; have h32 : cfg0.N = 32 := N_0; omega
  obtain ⟨-, -, -, -, -, -, -, -, -, -, -, -, -, -, -, -, -, e0, e1⟩ := idx_facts t
  funext j
  have hj0 : (j 0).val < 8 := (j 0).isLt
  show out0_8 (iblk m c 0 t) (iblk m c 1 t) (iblk m c 2 t) (iblk m c 3 t) (iblk m c 4 t) (iblk m c 5 t) (iblk m c 6 t) (iblk m c 7 t) j
    = Gm m c (((cfg0.win 8).blk t).view.emb j)
  rw [eq_ix2 j]
  refine (out_apply _ _ _ _ _ _ _ _ (j 0) (j 1)).trans ?_
  refine (blockRow_eq m c t (j 0) (j 1) ⟨8 * t.val + (j 0).val, by omega⟩ rfl).trans ?_
  refine congrArg (Gm m c) ?_
  funext a; apply Fin.ext
  match a with
  | ⟨0, _⟩ => show 8 * t.val + (j 0).val = win0_8.index t 0 * 8 + 1 * (j 0).val; rw [e0]; omega
  | ⟨1, _⟩ => show (j 1).val = win0_8.index t 1 * 1280 + 1 * (j 1).val; rw [e1]; omega

/-- An index of the result array is in point `t`'s block iff each coordinate is in the block's range on its axis. -/
theorem mem_blk (t : Fin cfg0.N) (i : S256x1280.Idx) :
    i ∈ ((cfg0.win 8).blk t).view.set ↔ ∀ a : Fin 2, win0_8.index t a * S8x1280.size a ≤ (i a).val
      ∧ (i a).val < win0_8.index t a * S8x1280.size a + S8x1280.size a := by
  show i ∈ ((View.whole main_v6).slice (win0_8.rect t)).set ↔ _
  rw [View.set_slice_whole, Rect.mem_set_unit]
  exact Iff.rfl

/-- The result array after the run: batch row `b` lies in the block of point `b / 8`, so the 32 blocks cover the array and
    it ends holding the whole-array function. -/
theorem final (c : Dev nD) : (dats m 0 c).arrAt 8 cfg0.N = Gm m c :=
  (dats m 0 c).arrAt_eq_of_cover 8 (Gm m c) (fun t _ => flushed_eq m c t) fun i => by
    have hi0 : (i 0).val < 256 := (i 0).isLt
    have hi1 : (i 1).val < 1280 := (i 1).isLt
    have h32 : cfg0.N = 32 := N_0
    obtain ⟨t, ht⟩ : ∃ t : Fin cfg0.N, t.val = (i 0).val / 8 := ⟨⟨(i 0).val / 8, by omega⟩, rfl⟩
    obtain ⟨-, -, -, -, -, -, -, -, -, -, -, -, -, -, -, -, -, e0, e1⟩ := idx_facts t
    refine ⟨t, flush0_8 t, ?_⟩
    rw [mem_blk]
    intro a
    match a with
    | ⟨0, _⟩ =>
      show win0_8.index t 0 * 8 ≤ (i 0).val ∧ (i 0).val < win0_8.index t 0 * 8 + 8
      rw [e0, ht]; omega
    | ⟨1, _⟩ =>
      show win0_8.index t 1 * 1280 ≤ (i 1).val ∧ (i 1).val < win0_8.index t 1 * 1280 + 1280
      rw [e1]; omega

/-- The kernel's run, with the result array named: every weakly fair execution ends with the result at the
    whole-array function of the arguments and the arguments unchanged. -/
theorem run : θ_run defs (onTc (τ := τ) (main (F := Ideal))) ⟨m, fun _ => 0, ρ⟩ fun r => ∀ c : Dev nD,
      r.2.mem ((c : Thread nD τ).loc main_v6) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Whole

end
-- ==== Proof.RefValue.lean ====
/-
  The reference, on the extended reals, read at one coordinate.

  The reference computes, for batch row `b`: the pre-activation `((∑ k, f (b, l, k) · W1 (k, u)) + b1 u) + h (b, u)` with
  `h (b, u) = (∑ k, x (b, k) · W2 (k, u)) + b2 u`; its `tanh` contracted with `V` plus `bV` (the logit); the maximum of the
  logits over `l` (a fold of `max` from −∞, then one more `max` with −∞, which changes nothing); the exponentials of the
  differences; their sum from zero; the quotient; and the sum over `l`, from zero, of weight times feature.  Read through
  the generated stage lemmas with every index written by coordinates, that is `Attn.G` of the arguments.
-/
import proofs.«150355_j69226282877122_2_alg».proof.Proof.Gen.ReferenceIdeal.Read
import proofs.«150355_j69226282877122_2_alg».proof.Proof.AttnSpec
import Idealize.ShloMosaic.Lib.ValueIdx
import Idealize.ShloMosaic.Lib.Pipeline.Value
import Idealize.ShloMosaic.PureOps.Ideal.Laws

set_option synthInstance.maxSize 4096

noncomputable section

open scoped BigOperators

namespace Cert.ReferenceIdeal.RefValue

open Cert.ReferenceIdeal Cert.ReferenceIdeal.Gen Cert.ReferenceIdeal.Read Idealize.ShloMosaic Idealize.ShloMosaic.ValueIdx Idealize.SL.Sem

/-- Two indices of a literal shape of rank at most three are equal when their coordinates are. -/
local macro "idx_tac" : tactic => `(tactic| (funext a; apply Fin.ext; fin_cases a <;> rfl))

variable (x0 : (⟨S256x225x1280, .f32⟩ : BufTy).Contents (Elt Ideal)) (x1 : (⟨S256x256, .f32⟩ : BufTy).Contents (Elt Ideal))
  (x2 : (⟨S1280x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x1, .f32⟩ : BufTy).Contents (Elt Ideal)) (x7 : (⟨S1, .f32⟩ : BufTy).Contents (Elt Ideal))

/-- The row's features, projected hidden state and weights as the reference reads them. -/
abbrev feat (b : Fin 256) : Fin 225 → Fin 1280 → EReal := fun l k => x0 (ix3 b l k)
abbrev hproj (b : Fin 256) : Fin 256 → EReal :=
  Attn.projH (fun k => x1 (ix2 b k)) (fun k u => x4 (ix2 k u)) (fun u => x5 (ix1 u))
abbrev logit (b : Fin 256) : Fin 225 → EReal :=
  Attn.rowLogit (feat x0 b) (hproj x1 x4 x5 b) (fun k u => x2 (ix2 k u)) (fun u => x3 (ix1 u)) (fun u => x6 (ix2 u (0 : Fin 1))) (x7 (ix1 (0 : Fin 1)))

/-- The argument of `tanh` at (b, l, u). -/
theorem pre_apply (b : Fin 256) (l : Fin 225) (u : Fin 256) :
    val_main_v10 x0 x1 x2 x3 x4 x5 (ix3 b l u)
      = ((∑ k : Fin 1280, x0 (ix3 b l k) * x2 (ix2 k u)) + x3 (ix1 u)) + hproj x1 x4 x5 b u := by
  rw [val_main_v10_apply, val_main_v3_apply, val_main_v0_apply, val_main_v2_apply, val_main_v1_apply, val_main_v9_apply,
    val_main_v8_apply, val_main_v7_apply, val_main_v4_apply, val_main_v6_apply, val_main_v5_apply]
  show (_ + _ : EReal) + (_ + _) = _
  have i0 : ∀ k : Fin 1280, lidx_main_v0 (ix3 b l u) k = ix3 b l k := fun k => by idx_tac
  have i1 : ∀ k : Fin 1280, ridx_main_v0 (ix3 b l u) k = ix2 k u := fun k => by idx_tac
  have i2 : idx_main_v1 (idx_main_v2 (ix3 b l u)) = ix1 u := by idx_tac
  have i3 : ∀ k : Fin 256, lidx_main_v4 (idx_main_v8 (idx_main_v9 (ix3 b l u))) k = ix2 b k := fun k => by idx_tac
  have i4 : ∀ k : Fin 256, ridx_main_v4 (idx_main_v8 (idx_main_v9 (ix3 b l u))) k = ix2 k u := fun k => by idx_tac
  have i5 : idx_main_v5 (idx_main_v6 (idx_main_v8 (idx_main_v9 (ix3 b l u)))) = ix1 u := by idx_tac
  simp only [i0, i1, i2, i3, i4, i5, hproj, Attn.projH]

/-- The logit at (b, l). -/
theorem logit_apply (b : Fin 256) (l : Fin 225) :
    val_main_v15 x0 x1 x2 x3 x4 x5 x6 x7 (ix3 b l (0 : Fin 1)) = logit x0 x1 x2 x3 x4 x5 x6 x7 b l := by
  rw [val_main_v15_apply, val_main_v12_apply, val_main_v14_apply, val_main_v13_apply]
  show (_ + _ : EReal) = _
  have i0 : ∀ k : Fin 256, lidx_main_v12 (ix3 b l (0 : Fin 1)) k = ix3 b l k := fun k => by idx_tac
  have i1 : ∀ k : Fin 256, ridx_main_v12 (ix3 b l (0 : Fin 1)) k = ix2 k (0 : Fin 1) := fun k => by idx_tac
  have i2 : idx_main_v13 (idx_main_v14 (ix3 b l (0 : Fin 1))) = ix1 (0 : Fin 1) := by idx_tac
  simp only [i0, i1, i2, val_main_v11_apply, pre_apply, Ideal.hostUnary_tanh_def, logit, feat, Attn.rowLogit]

/-- Putting position `l` back into the reduced axis at (b, 0) gives (b, l, 0). -/
theorem lift_mid (h : S256x225x1.Reduces [1] S256x1) (b : Fin 256) (l : Fin 225) :
    h.lift (ix2 b (0 : Fin 1)) l = ix3 b l (0 : Fin 1) := by idx_tac

/-- The row maximum at (b, 0). -/
theorem max_apply (b : Fin 256) :
    val_main_v18 x0 x1 x2 x3 x4 x5 x6 x7 (ix2 b (0 : Fin 1)) = Attn.rowMax (logit x0 x1 x2 x3 x4 x5 x6 x7 b) := by
  rw [val_main_v18_apply, val_main_v17_apply, val_main_cst_0_apply]
  show max (Ideal.ofBits .f32 0xFF800000#32) _ = _
  rw [Attn.max_negInf]
  unfold val_main_v16
  have h : S256x225x1.Reduces [1] S256x1 := by decide
  rw [Host.reduce_eq_fold_single FloatOps.maximumf _ _ reducesTo_S256x225x1_S256x1_d1 h h_S_]
  unfold Attn.rowMax
  have hf : (val_main_v15 x0 x1 x2 x3 x4 x5 x6 x7 ∘ h.lift (ix2 b (0 : Fin 1))) = logit x0 x1 x2 x3 x4 x5 x6 x7 b :=
    funext fun l => (congrArg _ (lift_mid h b l)).trans (logit_apply x0 x1 x2 x3 x4 x5 x6 x7 b l)
  rw [hf]
  rfl

/-- The unnormalised softmax weight at (b, l). -/
theorem exp_apply (b : Fin 256) (l : Fin 225) :
    val_main_v22 x0 x1 x2 x3 x4 x5 x6 x7 (ix3 b l (0 : Fin 1)) = Attn.rowExp (logit x0 x1 x2 x3 x4 x5 x6 x7 b) l := by
  rw [val_main_v22_apply, val_main_v21_apply, val_main_v20_apply, val_main_v19_apply]
  have i0 : idx_main_v19 (idx_main_v20 (ix3 b l (0 : Fin 1))) = ix2 b (0 : Fin 1) := by idx_tac
  rw [i0, max_apply, logit_apply]
  rfl

/-- The softmax weight at (b, l). -/
theorem weight_apply (b : Fin 256) (l : Fin 225) :
    val_main_v26 x0 x1 x2 x3 x4 x5 x6 x7 (ix3 b l (0 : Fin 1)) = Attn.rowWeight (logit x0 x1 x2 x3 x4 x5 x6 x7 b) l := by
  rw [val_main_v26_apply, val_main_v25_apply, val_main_v24_apply, val_main_v23_apply, val_main_cst_1_apply, exp_apply]
  have i0 : ∀ k : Fin 225, idx_main_v23 (idx_main_v24 (idx_main_v25 (ix3 b l (0 : Fin 1)))) k = ix3 b k (0 : Fin 1) :=
    fun k => by idx_tac
  simp only [i0, exp_apply]
  show Ideal.div _ (Ideal.ofBits .f32 0x00000000#32 + _) = _
  rw [Ideal.ofBits_zero_f32, zero_add]
  rfl

/-- The reference's result is the whole-array function of its arguments. -/
theorem result_eq : val_main_v29 x0 x1 x2 x3 x4 x5 x6 x7 = Attn.G x0 x1 x2 x3 x4 x5 x6 x7 := by
  funext i
  obtain ⟨b, d, rfl⟩ : ∃ (b : Fin 256) (d : Fin 1280), i = ix2 b d := ⟨i 0, i 1, eq_ix2 i⟩
  rw [val_main_v29_apply, val_main_cst_2_apply]
  have i0 : ∀ k : Fin 225, idx_main_v29 (ix2 b d) k = ix3 b k d := fun k => by idx_tac
  have i1 : ∀ k : Fin 225, idx_main_v27 (ix3 b k d) = ix3 b k (0 : Fin 1) := fun k => by idx_tac
  simp only [i0, val_main_v28_apply, val_main_v27_apply, i1, weight_apply]
  show Ideal.ofBits .f32 0x00000000#32 + _ = _
  rw [Ideal.ofBits_zero_f32, zero_add]
  rfl

end Cert.ReferenceIdeal.RefValue

end
-- ==== Proof.lean ====
/-
  Additive (Bahdanau) attention: a fused kernel over blocks of eight batch rows against the plain array program.

  Both programs compute, for batch row `b` and coordinate `d`,
  `∑ l, softmax_l (λ b) · f (b, l, d)` with logits `λ b l = (∑ u, tanh ((f (b, l, ·) · W1 + b1) u + (x b · W2 + b2) u) · V u) + bV`
  and the softmax in its stable form (subtract the maximum, exponentiate, divide by the sum).  The kernel runs 32 grid
  points of eight batch rows each, projects with matrix products on operands whose float format it narrows, and
  contracts the weights with the features by another matrix product; the reference uses contractions, reductions
  and broadcasts over the whole arrays.  On the extended reals a change of float format is the identity and both
  programs associate every sum and product the same way, so the two results are one function of the arguments
  (`Attn.G`), with no appeal to finiteness: the kernel's result array is that function (the row function of the body read
  at a coordinate, then blocks to the array), and so is the reference's (its stages read at coordinates).  The three
  frames are the generated ones; the idealisation rewrote nothing, so `preserves` is trivial.
-/
import proofs.«150355_j69226282877122_2_alg».proof.Defs
import proofs.«150355_j69226282877122_2_alg».proof.Proof.Gen.Kernel
import proofs.«150355_j69226282877122_2_alg».proof.Proof.Gen.Kernel.Frame
import proofs.«150355_j69226282877122_2_alg».proof.Proof.Gen.KernelIdeal
import proofs.«150355_j69226282877122_2_alg».proof.Proof.Gen.KernelIdeal.Frame
import proofs.«150355_j69226282877122_2_alg».proof.Proof.Gen.KernelIdeal.Value
import proofs.«150355_j69226282877122_2_alg».proof.Proof.Gen.ReferenceIdeal
import proofs.«150355_j69226282877122_2_alg».proof.Proof.Gen.ReferenceIdeal.Run
import proofs.«150355_j69226282877122_2_alg».proof.Proof.Gen.ReferenceIdeal.Read
import proofs.«150355_j69226282877122_2_alg».proof.Proof.Gen.Pre_finite_inputs
import proofs.«150355_j69226282877122_2_alg».proof.Proof.ArrayValue
import proofs.«150355_j69226282877122_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the result at `Attn.G` of the arguments. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
